-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x5x11 : Shape := ⟨3, ![16384, 5, 11]⟩
abbrev S64x55 : Shape := ⟨2, ![64, 55]⟩
abbrev S64 : Shape := ⟨1, ![64]⟩
abbrev S64x64 : Shape := ⟨2, ![64, 64]⟩
abbrev S2x64 : Shape := ⟨2, ![2, 64]⟩
abbrev S2 : Shape := ⟨1, ![2]⟩
abbrev S128x1 : Shape := ⟨2, ![128, 1]⟩
abbrev S128 : Shape := ⟨1, ![128]⟩
abbrev S64x128 : Shape := ⟨2, ![64, 128]⟩
abbrev S220x64 : Shape := ⟨2, ![220, 64]⟩
abbrev S220 : Shape := ⟨1, ![220]⟩
abbrev S16384x1 : Shape := ⟨2, ![16384, 1]⟩
abbrev S_ : Shape := ⟨0, ![]⟩

class Facts : Prop where
  bcast_S_S16384x5x11 : S_.BroadcastsInDim S16384x5x11 (![] : Fin 0 → Fin S16384x5x11.rank)
  reducesTo_S16384x5x11_S_d0_1_2 : S16384x5x11.ReducesTo [0, 1, 2] S_
  h_S_ : 0 < S_.numel
  bcast_S_S64x55 : S_.BroadcastsInDim S64x55 (![] : Fin 0 → Fin S64x55.rank)
  reducesTo_S64x55_S_d0_1 : S64x55.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S220x64 : S_.BroadcastsInDim S220x64 (![] : Fin 0 → Fin S220x64.rank)
  reducesTo_S220x64_S_d0_1 : S220x64.ReducesTo [0, 1] S_
  bcast_S_S220 : S_.BroadcastsInDim S220 (![] : Fin 0 → Fin S220.rank)
  reducesTo_S220_S_d0 : S220.ReducesTo [0] S_
  bcast_S_S16384x1 : S_.BroadcastsInDim S16384x1 (![] : Fin 0 → Fin S16384x1.rank)
  reducesTo_S16384x1_S_d0_1 : S16384x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S220x64 .f32) (main_arg12 : FVec F S220 .f32) (main_arg13 : FVec F S16384x1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S220x64 .f32 := Host.absf main_arg11
  let main_cst_20 : FVec F S_ .f32 := constant S_ .f32 0x7F800000#32
  let main_v55 : FVec F S220x64 .f32 := broadcastInDim S220x64 ![] bcast_S_S220x64 main_cst_20
  let main_v56 : IVec S220x64 1 := cmpf .olt main_v54 main_v55
  let main_c_21 : IVec S_ 1 := constantI S_ 1 1#1
  let main_v57 : IVec S_ 1 := (fun x v => Host.reduce IntOp.andi x v reducesTo_S220x64_S_d0_1 h_S_) main_v56 main_c_21
  let main_v58 : IVec S_ 1 := andi main_v53 main_v57
  let main_v59 : FVec F S220 .f32 := Host.absf main_arg12
  let main_cst_22 : FVec F S_ .f32 := constant S_ .f32 0x7F800000#32
  let main_v60 : FVec F S220 .f32 := broadcastInDim S220 ![] bcast_S_S220 main_cst_22
  let main_v61 : IVec S220 1 := cmpf .olt main_v59 main_v60
  let main_c_23 : IVec S_ 1 := constantI S_ 1 1#1
  let main_v62 : IVec S_ 1 := (fun x v => Host.reduce IntOp.andi x v reducesTo_S220_S_d0 h_S_) main_v61 main_c_23
  let main_v63 : IVec S_ 1 := andi main_v58 main_v62
  let main_v64 : FVec F S16384x1 .f32 := Host.absf main_arg13
  let main_cst_24 : FVec F S_ .f32 := constant S_ .f32 0x7F800000#32
  let main_v65 : FVec F S16384x1 .f32 := broadcastInDim S16384x1 ![] bcast_S_S16384x1 main_cst_24
  let main_v66 : IVec S16384x1 1 := cmpf .olt main_v64 main_v65
  let main_c_25 : IVec S_ 1 := constantI S_ 1 1#1
  let main_v67 : IVec S_ 1 := (fun x v => Host.reduce IntOp.andi x v reducesTo_S16384x1_S_d0_1 h_S_) main_v66 main_c_25
  fn_part4 (F := F) main_v63 main_v67

def fn_part2 {F : FTy → Type} [FloatOps F] (main_arg7 : FVec F S128x1 .f32) (main_arg8 : FVec F S128 .f32) (main_arg9 : FVec F S64x128 .f32) (main_arg10 : FVec F S64 .f32) (main_arg11 : FVec F S220x64 .f32) (main_arg12 : FVec F S220 .f32) (main_arg13 : FVec F S16384x1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_v48 main_v49 main_v50

def fn_part1 {F : FTy → Type} [FloatOps F] (main_arg4 : FVec F S64 .f32) (main_arg5 : FVec F S2x64 .f32) (main_arg6 : FVec F S2 .f32) (main_arg7 : FVec F S128x1 .f32) (main_arg8 : FVec F S128 .f32) (main_arg9 : FVec F S64x128 .f32) (main_arg10 : FVec F S64 .f32) (main_arg11 : FVec F S220x64 .f32) (main_arg12 : FVec F S220 .f32) (main_arg13 : FVec F S16384x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x5x11 .f32) (main_arg1 : FVec F S64x55 .f32) (main_arg2 : FVec F S64 .f32) (main_arg3 : FVec F S64x64 .f32) (main_arg4 : FVec F S64 .f32) (main_arg5 : FVec F S2x64 .f32) (main_arg6 : FVec F S2 .f32) (main_arg7 : FVec F S128x1 .f32) (main_arg8 : FVec F S128 .f32) (main_arg9 : FVec F S64x128 .f32) (main_arg10 : FVec F S64 .f32) (main_arg11 : FVec F S220x64 .f32) (main_arg12 : FVec F S220 .f32) (main_arg13 : FVec F S16384x1 .f32) : IVec S_ 1 :=
  let main_v0 : FVec F S16384x5x11 .f32 := Host.absf main_arg0
  let main_cst : FVec F S_ .f32 := constant S_ .f32 0x7F800000#32
  let main_v1 : FVec F S16384x5x11 .f32 := broadcastInDim S16384x5x11 ![] bcast_S_S16384x5x11 main_cst
  let main_v2 : IVec S16384x5x11 1 := cmpf .olt main_v0 main_v1
  let main_c : IVec S_ 1 := constantI S_ 1 1#1
  let main_v3 : IVec S_ 1 := (fun x v => Host.reduce IntOp.andi x v reducesTo_S16384x5x11_S_d0_1_2 h_S_) main_v2 main_c
  let main_v4 : FVec F S64x55 .f32 := Host.absf main_arg1
  let main_cst_0 : FVec F S_ .f32 := constant S_ .f32 0x7F800000#32
  let main_v5 : FVec F S64x55 .f32 := broadcastInDim S64x55 ![] bcast_S_S64x55 main_cst_0
  let main_v6 : IVec S64x55 1 := cmpf .olt main_v4 main_v5
  let main_c_1 : IVec S_ 1 := constantI S_ 1 1#1
  let main_v7 : IVec S_ 1 := (fun x v => Host.reduce IntOp.andi x v reducesTo_S64x55_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x5x11 : Shape := ⟨3, ![16384, 5, 11]⟩
abbrev S64x55 : Shape := ⟨2, ![64, 55]⟩
abbrev S64 : Shape := ⟨1, ![64]⟩
abbrev S64x64 : Shape := ⟨2, ![64, 64]⟩
abbrev S2x64 : Shape := ⟨2, ![2, 64]⟩
abbrev S2 : Shape := ⟨1, ![2]⟩
abbrev S128x1 : Shape := ⟨2, ![128, 1]⟩
abbrev S128 : Shape := ⟨1, ![128]⟩
abbrev S64x128 : Shape := ⟨2, ![64, 128]⟩
abbrev S220x64 : Shape := ⟨2, ![220, 64]⟩
abbrev S220 : Shape := ⟨1, ![220]⟩
abbrev S16384x1 : Shape := ⟨2, ![16384, 1]⟩
abbrev S55x64 : Shape := ⟨2, ![55, 64]⟩
abbrev S1x64 : Shape := ⟨2, ![1, 64]⟩
abbrev S64x2 : Shape := ⟨2, ![64, 2]⟩
abbrev S1x2 : Shape := ⟨2, ![1, 2]⟩
abbrev S1x128 : Shape := ⟨2, ![1, 128]⟩
abbrev S128x64 : Shape := ⟨2, ![128, 64]⟩
abbrev S64x220 : Shape := ⟨2, ![64, 220]⟩
abbrev S1x220 : Shape := ⟨2, ![1, 220]⟩
abbrev S55x2 : Shape := ⟨2, ![55, 2]⟩
abbrev S16384x20x11 : Shape := ⟨3, ![16384, 20, 11]⟩
abbrev S512x5x11 : Shape := ⟨3, ![512, 5, 11]⟩
abbrev S512x1 : Shape := ⟨2, ![512, 1]⟩
abbrev S512x20x11 : Shape := ⟨3, ![512, 20, 11]⟩
abbrev S512x55 : Shape := ⟨2, ![512, 55]⟩
abbrev S512x2 : Shape := ⟨2, ![512, 2]⟩
abbrev S512x220 : Shape := ⟨2, ![512, 220]⟩

abbrev nBuf : Space → Nat
  | .hbm => 33
  | .vmem => 30
  | .smem => 0
  | _ => 0

abbrev bufTy : (tb : Table) → Fin (tcTables nBuf tb) → BufTy
  | .hbm, ⟨0, _⟩ => ⟨S16384x5x11, .f32⟩
  | .hbm, ⟨1, _⟩ => ⟨S64x55, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x64, .f32⟩
  | .hbm, ⟨6, _⟩ => ⟨S2, .f32⟩
  | .hbm, ⟨7, _⟩ => ⟨S128x1, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S220x64, .f32⟩
  | .hbm, ⟨12, _⟩ => ⟨S220, .f32⟩
  | .hbm, ⟨13, _⟩ => ⟨S16384x1, .f32⟩
  | .hbm, ⟨14, _⟩ => ⟨S55x64, .f32⟩
  | .hbm, ⟨15, _⟩ => ⟨S1x64, .f32⟩
  | .hbm, ⟨16, _⟩ => ⟨S64x64, .f32⟩
  | .hbm, ⟨17, _⟩ => ⟨S1x64, .f32⟩
  | .hbm, ⟨18, _⟩ => ⟨S64x2, .f32⟩
  | .hbm, ⟨19, _⟩ => ⟨S1x2, .f32⟩
  | .hbm, ⟨20, _⟩ => ⟨S1x128, .f32⟩
  | .hbm, ⟨21, _⟩ => ⟨S1x128, .f32⟩
  | .hbm, ⟨22, _⟩ => ⟨S128x64, .f32⟩
  | .hbm, ⟨23, _⟩ => ⟨S1x64, .f32⟩
  | .hbm, ⟨24, _⟩ => ⟨S64x220, .f32⟩
  | .hbm, ⟨25, _⟩ => ⟨S1x220, .f32⟩
  | .hbm, ⟨26, _⟩ => ⟨S55x2, .f32⟩
  | .hbm, ⟨27, _⟩ => ⟨S1x2, .f32⟩
  | .hbm, ⟨28, _⟩ => ⟨S1x220, .f32⟩
  | .hbm, ⟨29, _⟩ => ⟨S1x220, .f32⟩
  | .hbm, ⟨30, _⟩ => ⟨S16384x1, .f32⟩
  | .hbm, ⟨31, _⟩ => ⟨S16384x1, .f32⟩
  | .hbm, ⟨32, _⟩ => ⟨S16384x20x11, .f32⟩
  | .local _ .vmem, ⟨0, _⟩ => ⟨S55x64, .f32⟩
  | .local _ .vmem, ⟨1, _⟩ => ⟨S1x64, .f32⟩
  | .local _ .vmem, ⟨2, _⟩ => ⟨S64x64, .f32⟩
  | .local _ .vmem, ⟨3, _⟩ => ⟨S1x64, .f32⟩
  | .local _ .vmem, ⟨4, _⟩ => ⟨S64x2, .f32⟩
  | .local _ .vmem, ⟨5, _⟩ => ⟨S1x2, .f32⟩
  | .local _ .vmem, ⟨6, _⟩ => ⟨S1x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x220, .f32⟩
  | .local _ .vmem, ⟨11, _⟩ => ⟨S1x220, .f32⟩
  | .local _ .vmem, ⟨12, _⟩ => ⟨S55x2, .f32⟩
  | .local _ .vmem, ⟨13, _⟩ => ⟨S1x2, .f32⟩
  | .local _ .vmem, ⟨14, _⟩ => ⟨S1x220, .f32⟩
  | .local _ .vmem, ⟨15, _⟩ => ⟨S1x220, .f32⟩
  | .local _ .vmem, ⟨16, _⟩ => ⟨S512x5x11, .f32⟩
  | .local _ .vmem, ⟨17, _⟩ => ⟨S512x5x11, .f32⟩
  | .local _ .vmem, ⟨18, _⟩ => ⟨S512x1, .f32⟩
  | .local _ .vmem, ⟨19, _⟩ => ⟨S512x1, .f32⟩
  | .local _ .vmem, ⟨20, _⟩ => ⟨S55x2, .f32⟩
  | .local _ .vmem, ⟨21, _⟩ => ⟨S1x2, .f32⟩
  | .local _ .vmem, ⟨22, _⟩ => ⟨S1x220, .f32⟩
  | .local _ .vmem, ⟨23, _⟩ => ⟨S1x220, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x20x11, .f32⟩
  | .local _ .vmem, ⟨29, _⟩ => ⟨S512x20x11, .f32⟩
  | _, _ => ⟨S16384x5x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := .none

abbrev stage0_0 : Fin 1 → Memref sig .tc .vmem S55x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x220 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x220 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S55x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x220 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x220 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x5x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S55x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x220 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x220 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x20x11 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S64x55_S55x64_1_0 : S64x55.Transposes [1, 0] S55x64
  bcast_S64_S1x64_1 : S64.BroadcastsInDim S1x64 (![1] : Fin 1 → Fin S1x64.rank)
  transposes_S64x64_S64x64_1_0 : S64x64.Transposes [1, 0] S64x64
  transposes_S2x64_S64x2_1_0 : S2x64.Transposes [1, 0] S64x2
  bcast_S2_S1x2_1 : S2.BroadcastsInDim S1x2 (![1] : Fin 1 → Fin S1x2.rank)
  shapeCasts_S128x1_S1x128 : S128x1.ShapeCasts S1x128
  bcast_S128_S1x128_1 : S128.BroadcastsInDim S1x128 (![1] : Fin 1 → Fin S1x128.rank)
  transposes_S64x128_S128x64_1_0 : S64x128.Transposes [1, 0] S128x64
  transposes_S220x64_S64x220_1_0 : S220x64.Transposes [1, 0] S64x220
  bcast_S220_S1x220_1 : S220.BroadcastsInDim S1x220 (![1] : Fin 1 → Fin S1x220.rank)
  inb_S55x64_S55x64_0_0 : ∀ a, (![0, 0] : Fin 2 → Nat) a + S55x64.size a ≤ S55x64.size a
  h_S55x64 : 0 < S55x64.numel
  shapeCasts_S55x64_S55x64 : S55x64.ShapeCasts S55x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S55x2_S55x2_0_0 : ∀ a, (![0, 0] : Fin 2 → Nat) a + S55x2.size a ≤ S55x2.size a
  h_S55x2 : 0 < S55x2.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x220_S64x220_0_0 : ∀ a, (![0, 0] : Fin 2 → Nat) a + S64x220.size a ≤ S64x220.size a
  h_S64x220 : 0 < S64x220.numel
  shapeCasts_S64x220_S64x220 : S64x220.ShapeCasts S64x220
  inb_S1x220_S1x220_0_0 : ∀ a, (![0, 0] : Fin 2 → Nat) a + S1x220.size a ≤ S1x220.size a
  h_S1x220 : 0 < S1x220.numel
  shapeCasts_S1x220_S1x220 : S1x220.ShapeCasts S1x220
  inb_S512x5x11_S512x5x11_0_0_0 : ∀ a, (![0, 0, 0] : Fin 3 → Nat) a + S512x5x11.size a ≤ S512x5x11.size a
  h_S512x5x11 : 0 < S512x5x11.numel
  shapeCasts_S512x5x11_S512x55 : S512x5x11.ShapeCasts S512x55
  shapeCasts_S55x2_S55x2 : S55x2.ShapeCasts S55x2
  broadcasts_S1x2_S512x2 : S1x2.Broadcasts S512x2
  slices_S512x2_o0_0_S512x1 : S512x2.Slices ![0, 0] S512x1
  slices_S512x2_o0_1_S512x1 : S512x2.Slices ![0, 1] S512x1
  inb_S512x1_S512x1_0_0 : ∀ a, (![0, 0] : Fin 2 → Nat) a + S512x1.size a ≤ S512x1.size a
  h_S512x1 : 0 < S512x1.numel
  broadcasts_S512x1_S512x220 : S512x1.Broadcasts S512x220
  broadcasts_S1x220_S512x220 : S1x220.Broadcasts S512x220
  shapeCasts_S512x220_S512x20x11 : S512x220.ShapeCasts S512x20x11
  inb_S512x20x11_S512x20x11_0_0_0 : ∀ a, (![0, 0, 0] : Fin 3 → Nat) a + S512x20x11.size a ≤ S512x20x11.size a
  h_S512x20x11 : 0 < S512x20x11.numel
  dot_S55x64_S64x64_S55x64_1_0_0_1_n_n_wf : DotDims.WF S55x64 S64x64 S55x64 [1] [0] [0] [1] [] []
  dot_S55x64_S64x2_S55x2_1_0_0_1_n_n_wf : DotDims.WF S55x64 S64x2 S55x2 [1] [0] [0] [1] [] []
  dot_S1x64_S64x64_S1x64_1_0_0_1_n_n_wf : DotDims.WF S1x64 S64x64 S1x64 [1] [0] [0] [1] [] []
  dot_S1x64_S64x2_S1x2_1_0_0_1_n_n_wf : DotDims.WF S1x64 S64x2 S1x2 [1] [0] [0] [1] [] []
  dot_S1x128_S128x64_S1x64_1_0_0_1_n_n_wf : DotDims.WF S1x128 S128x64 S1x64 [1] [0] [0] [1] [] []
  dot_S1x64_S64x220_S1x220_1_0_0_1_n_n_wf : DotDims.WF S1x64 S64x220 S1x220 [1] [0] [0] [1] [] []
  dot_S512x55_S55x2_S512x2_1_0_0_1_n_n_wf : DotDims.WF S512x55 S55x2 S512x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x5x11.size a ≤ S16384x5x11.size a
  hwx1_0 : ∀ i : grid1.Coords, EltTy.bits .f32 = 32 ∨ (Rect.block (s := S16384x5x11) S512x5x11.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S16384x1.size a
  hwx1_1 : ∀ i : grid1.Coords, EltTy.bits .f32 = 32 ∨ (Rect.block (s := S16384x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S55x2.size a ≤ S55x2.size a
  hwx1_2 : ∀ i : grid1.Coords, EltTy.bits .f32 = 32 ∨ (Rect.block (s := S55x2) S55x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x220.size a ≤ S1x220.size a
  hwx1_4 : ∀ i : grid1.Coords, EltTy.bits .f32 = 32 ∨ (Rect.block (s := S1x220) S1x220.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x220.size a ≤ S1x220.size a
  hwx1_5 : ∀ i : grid1.Coords, EltTy.bits .f32 = 32 ∨ (Rect.block (s := S1x220) S1x220.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S16384x1.size a
  hwx1_6 : ∀ i : grid1.Coords, EltTy.bits .f32 = 32 ∨ (Rect.block (s := S16384x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S16384x1.size a
  hwx1_7 : ∀ i : grid1.Coords, EltTy.bits .f32 = 32 ∨ (Rect.block (s := S16384x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x20x11.size a ≤ S16384x20x11.size a
  hwx1_8 : ∀ i : grid1.Coords, EltTy.bits .f32 = 32 ∨ (Rect.block (s := S16384x20x11) S512x20x11.size (cc1_transform_8 i) (hinb1_8 i)).WholeWords (EltTy.packing .f32)

variable [Facts₀]

def dot_S55x64_S64x64_S55x64_1_0_0_1_n_n : DotDims S55x64 S64x64 S55x64 where
  lhsContracting := [1]
  rhsContracting := [0]
  lhsNonContracting := [0]
  rhsNonContracting := [1]
  lhsBatch := []
  rhsBatch := []
  wf := dot_S55x64_S64x64_S55x64_1_0_0_1_n_n_wf
def dot_S55x64_S64x2_S55x2_1_0_0_1_n_n : DotDims S55x64 S64x2 S55x2 where
  lhsContracting := [1]
  rhsContracting := [0]
  lhsNonContracting := [0]
  rhsNonContracting := [1]
  lhsBatch := []
  rhsBatch := []
  wf := dot_S55x64_S64x2_S55x2_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x2_S1x2_1_0_0_1_n_n : DotDims S1x64 S64x2 S1x2 where
  lhsContracting := [1]
  rhsContracting := [0]
  lhsNonContracting := [0]
  rhsNonContracting := [1]
  lhsBatch := []
  rhsBatch := []
  wf := dot_S1x64_S64x2_S1x2_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x220_S1x220_1_0_0_1_n_n : DotDims S1x64 S64x220 S1x220 where
  lhsContracting := [1]
  rhsContracting := [0]
  lhsNonContracting := [0]
  rhsNonContracting := [1]
  lhsBatch := []
  rhsBatch := []
  wf := dot_S1x64_S64x220_S1x220_1_0_0_1_n_n_wf
def dot_S512x55_S55x2_S512x2_1_0_0_1_n_n : DotDims S512x55 S55x2 S512x2 where
  lhsContracting := [1]
  rhsContracting := [0]
  lhsNonContracting := [0]
  rhsNonContracting := [1]
  lhsBatch := []
  rhsBatch := []
  wf := dot_S512x55_S55x2_S512x2_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_v1) false false (stage0_1 0) (sem0_1 0) (Memref.isWhole_whole _) (hstage0_1 0)

abbrev win0_2 : Pipeline.Window sig grid0 :=
  Pipeline.Window.whole (Memref.whole main_v2) false false (stage0_2 0) (sem0_2 0) (Memref.isWhole_whole _) (hstage0_2 0)

abbrev win0_3 : Pipeline.Window sig grid0 :=
  Pipeline.Window.whole (Memref.whole main_v3) false false (stage0_3 0) (sem0_3 0) (Memref.isWhole_whole _) (hstage0_3 0)

abbrev win0_4 : Pipeline.Window sig grid0 :=
  Pipeline.Window.whole (Memref.whole main_v4) false false (stage0_4 0) (sem0_4 0) (Memref.isWhole_whole _) (hstage0_4 0)

abbrev win0_5 : Pipeline.Window sig grid0 :=
  Pipeline.Window.whole (Memref.whole main_v5) false false (stage0_5 0) (sem0_5 0) (Memref.isWhole_whole _) (hstage0_5 0)

abbrev win0_6 : Pipeline.Window sig grid0 :=
  Pipeline.Window.whole (Memref.whole main_v6) false false (stage0_6 0) (sem0_6 0) (Memref.isWhole_whole _) (hstage0_6 0)

abbrev win0_7 : Pipeline.Window sig grid0 :=
  Pipeline.Window.whole (Memref.whole main_v7) false false (stage0_7 0) (sem0_7 0) (Memref.isWhole_whole _) (hstage0_7 0)

abbrev win0_8 : Pipeline.Window sig grid0 :=
  Pipeline.Window.whole (Memref.whole main_v8) false false (stage0_8 0) (sem0_8 0) (Memref.isWhole_whole _) (hstage0_8 0)

abbrev win0_9 : Pipeline.Window sig grid0 :=
  Pipeline.Window.whole (Memref.whole main_v9) false false (stage0_9 0) (sem0_9 0) (Memref.isWhole_whole _) (hstage0_9 0)

abbrev win0_10 : Pipeline.Window sig grid0 :=
  Pipeline.Window.whole (Memref.whole main_v10) false false (stage0_10 0) (sem0_10 0) (Memref.isWhole_whole _) (hstage0_10 0)

abbrev win0_11 : Pipeline.Window sig grid0 :=
  Pipeline.Window.whole (Memref.whole main_v11) false false (stage0_11 0) (sem0_11 0) (Memref.isWhole_whole _) (hstage0_11 0)

abbrev win0_12 : Pipeline.Window sig grid0 :=
  Pipeline.Window.whole (Memref.whole main_v12_0) true false (stage0_12 0) (sem0_12 0) (Memref.isWhole_whole _) (hstage0_12 0)

abbrev win0_13 : Pipeline.Window sig grid0 :=
  Pipeline.Window.whole (Memref.whole main_v12_1) true false (stage0_13 0) (sem0_13 0) (Memref.isWhole_whole _) (hstage0_13 0)

abbrev win0_14 : Pipeline.Window sig grid0 :=
  Pipeline.Window.whole (Memref.whole main_v12_2) true false (stage0_14 0) (sem0_14 0) (Memref.isWhole_whole _) (hstage0_14 0)

abbrev win0_15 : Pipeline.Window sig grid0 :=
  Pipeline.Window.whole (Memref.whole main_v12_3) true false (stage0_15 0) (sem0_15 0) (Memref.isWhole_whole _) (hstage0_15 0)

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S512x5x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_0) S55x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12_1) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12_2) S1x220.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_3) S1x220.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13_0) S512x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13_1) S512x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v13_2) S512x20x11.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16384x5x11 : Shape := ⟨3, ![16384, 5, 11]⟩
abbrev S64x55 : Shape := ⟨2, ![64, 55]⟩
abbrev S64 : Shape := ⟨1, ![64]⟩
abbrev S64x64 : Shape := ⟨2, ![64, 64]⟩
abbrev S2x64 : Shape := ⟨2, ![2, 64]⟩
abbrev S2 : Shape := ⟨1, ![2]⟩
abbrev S128x1 : Shape := ⟨2, ![128, 1]⟩
abbrev S128 : Shape := ⟨1, ![128]⟩
abbrev S64x128 : Shape := ⟨2, ![64, 128]⟩
abbrev S220x64 : Shape := ⟨2, ![220, 64]⟩
abbrev S220 : Shape := ⟨1, ![220]⟩
abbrev S16384x1 : Shape := ⟨2, ![16384, 1]⟩
abbrev S16384x55 : Shape := ⟨2, ![16384, 55]⟩
abbrev S55x64 : Shape := ⟨2, ![55, 64]⟩
abbrev S16384x64 : Shape := ⟨2, ![16384, 64]⟩
abbrev S1x64 : Shape := ⟨2, ![1, 64]⟩
abbrev S_ : Shape := ⟨0, ![]⟩
abbrev S64x2 : Shape := ⟨2, ![64, 2]⟩
abbrev S16384x2 : Shape := ⟨2, ![16384, 2]⟩
abbrev S1x2 : Shape := ⟨2, ![1, 2]⟩
abbrev S1x128 : Shape := ⟨2, ![1, 128]⟩
abbrev S16384x128 : Shape := ⟨2, ![16384, 128]⟩
abbrev S128x64 : Shape := ⟨2, ![128, 64]⟩
abbrev S64x220 : Shape := ⟨2, ![64, 220]⟩
abbrev S16384x220 : Shape := ⟨2, ![16384, 220]⟩
abbrev S1x220 : Shape := ⟨2, ![1, 220]⟩
abbrev S16384x20x11 : Shape := ⟨3, ![16384, 20, 11]⟩

abbrev nBuf : Space → Nat
  | .hbm => 79
  | .vmem => 0
  | .smem => 0
  | _ => 0

abbrev bufTy : (tb : Table) → Fin (tcTables nBuf tb) → BufTy
  | .hbm, ⟨0, _⟩ => ⟨S16384x5x11, .f32⟩
  | .hbm, ⟨1, _⟩ => ⟨S64x55, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x64, .f32⟩
  | .hbm, ⟨6, _⟩ => ⟨S2, .f32⟩
  | .hbm, ⟨7, _⟩ => ⟨S128x1, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S220x64, .f32⟩
  | .hbm, ⟨12, _⟩ => ⟨S220, .f32⟩
  | .hbm, ⟨13, _⟩ => ⟨S16384x1, .f32⟩
  | .hbm, ⟨14, _⟩ => ⟨S16384x55, .f32⟩
  | .hbm, ⟨15, _⟩ => ⟨S55x64, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S64x64, .f32⟩
  | .hbm, ⟨28, _⟩ => ⟨S16384x64, .f32⟩
  | .hbm, ⟨29, _⟩ => ⟨S1x64, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384x64, .f32⟩
  | .hbm, ⟨34, _⟩ => ⟨S16384x64, .i1⟩
  | .hbm, ⟨35, _⟩ => ⟨S_, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S64x2, .f32⟩
  | .hbm, ⟨40, _⟩ => ⟨S16384x2, .f32⟩
  | .hbm, ⟨41, _⟩ => ⟨S1x2, .f32⟩
  | .hbm, ⟨42, _⟩ => ⟨S16384x2, .f32⟩
  | .hbm, ⟨43, _⟩ => ⟨S16384x2, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S1x128, .f32⟩
  | .hbm, ⟨49, _⟩ => ⟨S16384x128, .f32⟩
  | .hbm, ⟨50, _⟩ => ⟨S1x128, .f32⟩
  | .hbm, ⟨51, _⟩ => ⟨S16384x128, .f32⟩
  | .hbm, ⟨52, _⟩ => ⟨S16384x128, .f32⟩
  | .hbm, ⟨53, _⟩ => ⟨S_, .f32⟩
  | .hbm, ⟨54, _⟩ => ⟨S16384x128, .f32⟩
  | .hbm, ⟨55, _⟩ => ⟨S16384x128, .i1⟩
  | .hbm, ⟨56, _⟩ => ⟨S_, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S128x64, .f32⟩
  | .hbm, ⟨61, _⟩ => ⟨S16384x64, .f32⟩
  | .hbm, ⟨62, _⟩ => ⟨S1x64, .f32⟩
  | .hbm, ⟨63, _⟩ => ⟨S16384x64, .f32⟩
  | .hbm, ⟨64, _⟩ => ⟨S16384x64, .f32⟩
  | .hbm, ⟨65, _⟩ => ⟨S_, .f32⟩
  | .hbm, ⟨66, _⟩ => ⟨S16384x64, .f32⟩
  | .hbm, ⟨67, _⟩ => ⟨S16384x64, .i1⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S64x220, .f32⟩
  | .hbm, ⟨73, _⟩ => ⟨S16384x220, .f32⟩
  | .hbm, ⟨74, _⟩ => ⟨S1x220, .f32⟩
  | .hbm, ⟨75, _⟩ => ⟨S16384x220, .f32⟩
  | .hbm, ⟨76, _⟩ => ⟨S16384x220, .f32⟩
  | .hbm, ⟨77, _⟩ => ⟨S16384x20x11, .f32⟩
  | .hbm, ⟨78, _⟩ => ⟨S16384x1, .f32⟩
  | _, _ => ⟨S16384x5x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  shapeCasts_S16384x5x11_S16384x55 : S16384x5x11.ShapeCasts S16384x55
  transposes_S64x55_S55x64_1_0 : S64x55.Transposes [1, 0] S55x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S64x64_S64x64_1_0 : S64x64.Transposes [1, 0] S64x64
  transposes_S2x64_S64x2_1_0 : S2x64.Transposes [1, 0] S64x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  slices_S16384x2_S16384x1_0_0 : S16384x2.Slices ![0, 0] S16384x1
  slices_S16384x2_S16384x1_0_1 : S16384x2.Slices ![0, 1] S16384x1
  transposes_S128x1_S1x128_1_0 : S128x1.Transposes [1, 0] S1x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S64x128_S128x64_1_0 : S64x128.Transposes [1, 0] S128x64
  transposes_S220x64_S64x220_1_0 : S220x64.Transposes [1, 0] S64x220
  bcast_S220_S1x220_1 : S220.BroadcastsInDim S1x220 (![1] : Fin 1 → Fin S1x220.rank)
  bcast_S1x220_S16384x220_0_1 : S1x220.BroadcastsInDim S16384x220 (![0, 1] : Fin 2 → Fin S16384x220.rank)
  shapeCasts_S16384x220_S16384x20x11 : S16384x220.ShapeCasts S16384x20x11
  dot_S16384x55_S55x64_S16384x64_1_0_0_1_n_n_wf : DotDims.WF S16384x55 S55x64 S16384x64 [1] [0] [0] [1] [] []
  dot_S16384x64_S64x64_S16384x64_1_0_0_1_n_n_wf : DotDims.WF S16384x64 S64x64 S16384x64 [1] [0] [0] [1] [] []
  dot_S16384x64_S64x2_S16384x2_1_0_0_1_n_n_wf : DotDims.WF S16384x64 S64x2 S16384x2 [1] [0] [0] [1] [] []
  dot_S16384x1_S1x128_S16384x128_1_0_0_1_n_n_wf : DotDims.WF S16384x1 S1x128 S16384x128 [1] [0] [0] [1] [] []
  dot_S16384x128_S128x64_S16384x64_1_0_0_1_n_n_wf : DotDims.WF S16384x128 S128x64 S16384x64 [1] [0] [0] [1] [] []
  dot_S16384x64_S64x220_S16384x220_1_0_0_1_n_n_wf : DotDims.WF S16384x64 S64x220 S16384x220 [1] [0] [0] [1] [] []

variable [Facts₀]

def dot_S16384x55_S55x64_S16384x64_1_0_0_1_n_n : DotDims S16384x55 S55x64 S16384x64 where
  lhsContracting := [1]
  rhsContracting := [0]
  lhsNonContracting := [0]
  rhsNonContracting := [1]
  lhsBatch := []
  rhsBatch := []
  wf := dot_S16384x55_S55x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x2_S16384x2_1_0_0_1_n_n : DotDims S16384x64 S64x2 S16384x2 where
  lhsContracting := [1]
  rhsContracting := [0]
  lhsNonContracting := [0]
  rhsNonContracting := [1]
  lhsBatch := []
  rhsBatch := []
  wf := dot_S16384x64_S64x2_S16384x2_1_0_0_1_n_n_wf
def dot_S16384x1_S1x128_S16384x128_1_0_0_1_n_n : DotDims S16384x1 S1x128 S16384x128 where
  lhsContracting := [1]
  rhsContracting := [0]
  lhsNonContracting := [0]
  rhsNonContracting := [1]
  lhsBatch := []
  rhsBatch := []
  wf := dot_S16384x1_S1x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x220_S16384x220_1_0_0_1_n_n : DotDims S16384x64 S64x220 S16384x220 where
  lhsContracting := [1]
  rhsContracting := [0]
  lhsNonContracting := [0]
  rhsNonContracting := [1]
  lhsBatch := []
  rhsBatch := []
  wf := dot_S16384x64_S64x220_S16384x220_1_0_0_1_n_n_wf

class Facts : Prop extends Facts₀ where

variable [Facts]
-- ==== Proof.KRun.lean ====
/-
  The idealized kernel's run with its three result arrays named.

  The program is a stretch of host operations (transposes and re-layouts of the weights), the folding region and the
  batched region.  Its run leaves every unscoped buffer at the contents obtained by folding those three segments over
  the launch memory.  The run's post here states the three result buffers at that fold's final contents, beside the
  fourteen argument arrays ending as launched.
-/
import proofs.«176251_g39084202394388_cont_8to1_b_76_3_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; each result buffer ends at the final
    contents of the fold through the three segments, and each argument array ends as launched. -/
theorem run_outs : θ_run defs (onTc (τ := τ) (main (F := F))) ⟨m, fun _ => 0, ρ⟩ (fun r => ∀ c : Dev nD,
      r.2.mem ((c.tc : Thread nD τ).loc main_v13_0) = W3 m ρ c (Proc.devRef .tc main_v13_0)
      ∧ r.2.mem ((c.tc : Thread nD τ).loc main_v13_1) = W3 m ρ c (Proc.devRef .tc main_v13_1)
      ∧ r.2.mem ((c.tc : Thread nD τ).loc main_v13_2) = W3 m ρ c (Proc.devRef .tc main_v13_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v13_0 (by decide)),
       h c _ (mem_uc main_v13_1 (by decide)),
       h c _ (mem_uc main_v13_2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩)

end Cert.KernelIdeal.KRun

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.KHost.lean ====
/-
  The host stretch before the two regions, read entry by entry.

  Twelve re-layouts of the weight and bias arguments: each weight matrix transposed (entry `(p, q)` of the result is
  entry `(q, p)` of the argument), each bias vector laid out as a one-row array (entry `(0, q)` is entry `q`), and
  the first decoder weight, a [128, 1] column, re-laid as a [1, 128] row (entry `(0, q)` is entry `(q, 0)`).  The
  region that follows finds these twelve buffers at those values of the launch memory.
-/
import proofs.«176251_g39084202394388_cont_8to1_b_76_3_alg».proof.Proof.Gen.KernelIdeal.Frame
import proofs.«176251_g39084202394388_cont_8to1_b_76_3_alg».proof.Proof.LibRowOps
import Idealize.ShloMosaic.Lib.StableHlo.Run
import Idealize.ShloMosaic.Lib.Pipeline.Value
import Idealize.ShloMosaic.Lib.ValueIdx

noncomputable section

namespace Cert.KernelIdeal.KHost

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- A vector of length `n` laid out as a one-row array: entry `(0, j)` is entry `j`. -/
theorem rowOfVec_apply {α : Type} {n : Nat} (x : (⟨1, ![n]⟩ : Shape).Idx → α)
    (h : (⟨1, ![n]⟩ : Shape).BroadcastsInDim ⟨2, ![1, n]⟩ ![1]) (u : Fin 1) (j : Fin n) :
    broadcastInDim ⟨2, ![1, n]⟩ ![1] h x (ix2 u j) = x (ix1 j) :=
  broadcastInDim_apply ![1] h x (ix2 u j) (ix1 j) (fun a => by
    match a with
    | ⟨0, _⟩ =>
      show j.val = if n = 1 then 0 else j.val
      have := j.isLt
      split <;> omega)

theorem V1_v0 (c : Dev nD) :
    (V1 m ρ c main_v0 : S55x64.Idx → EReal) = transpose S55x64 [1, 0] (m ((c : Thread nD τ).loc main_arg1)) transposes_S64x55_S55x64_1_0 := by
  show StableHlo.after hostOps0 (W0 m ρ c) (Proc.devRef .tc main_v0) = _
  after_results <;> rfl

/-- Buffer 0 is argument 1 transposed. -/
theorem v0_at (c : Dev nD) (p : Fin 55) (q : Fin 64) :
    (V1 m ρ c main_v0 : S55x64.Idx → EReal) (ix2 p q) = (m ((c : Thread nD τ).loc main_arg1) : S64x55.Idx → EReal) (ix2 q p) :=
  (congrFun (V1_v0 m ρ c) (ix2 p q)).trans (Cert.RowOps.swap_apply _ _ p q)

theorem V1_v1 (c : Dev nD) :
    (V1 m ρ c main_v1 : S1x64.Idx → EReal) = broadcastInDim S1x64 ![1] bcast_S64_S1x64_1 (m ((c : Thread nD τ).loc main_arg2)) := by
  show StableHlo.after hostOps0 (W0 m ρ c) (Proc.devRef .tc main_v1) = _
  after_results <;> rfl

/-- Buffer 1 is argument 2 laid out as one row. -/
theorem v1_at (c : Dev nD) (q : Fin 64) :
    (V1 m ρ c main_v1 : S1x64.Idx → EReal) (ix2 (0 : Fin 1) q) = (m ((c : Thread nD τ).loc main_arg2) : S64.Idx → EReal) (ix1 q) :=
  (congrFun (V1_v1 m ρ c) (ix2 (0 : Fin 1) q)).trans (rowOfVec_apply _ _ 0 q)

theorem V1_v2 (c : Dev nD) :
    (V1 m ρ c main_v2 : S64x64.Idx → EReal) = transpose S64x64 [1, 0] (m ((c : Thread nD τ).loc main_arg3)) transposes_S64x64_S64x64_1_0 := by
  show StableHlo.after hostOps0 (W0 m ρ c) (Proc.devRef .tc main_v2) = _
  after_results <;> rfl

/-- Buffer 2 is argument 3 transposed. -/
theorem v2_at (c : Dev nD) (p : Fin 64) (q : Fin 64) :
    (V1 m ρ c main_v2 : S64x64.Idx → EReal) (ix2 p q) = (m ((c : Thread nD τ).loc main_arg3) : S64x64.Idx → EReal) (ix2 q p) :=
  (congrFun (V1_v2 m ρ c) (ix2 p q)).trans (Cert.RowOps.swap_apply _ _ p q)

theorem V1_v3 (c : Dev nD) :
    (V1 m ρ c main_v3 : S1x64.Idx → EReal) = broadcastInDim S1x64 ![1] bcast_S64_S1x64_1 (m ((c : Thread nD τ).loc main_arg4)) := by
  show StableHlo.after hostOps0 (W0 m ρ c) (Proc.devRef .tc main_v3) = _
  after_results <;> rfl

/-- Buffer 3 is argument 4 laid out as one row. -/
theorem v3_at (c : Dev nD) (q : Fin 64) :
    (V1 m ρ c main_v3 : S1x64.Idx → EReal) (ix2 (0 : Fin 1) q) = (m ((c : Thread nD τ).loc main_arg4) : S64.Idx → EReal) (ix1 q) :=
  (congrFun (V1_v3 m ρ c) (ix2 (0 : Fin 1) q)).trans (rowOfVec_apply _ _ 0 q)

theorem V1_v4 (c : Dev nD) :
    (V1 m ρ c main_v4 : S64x2.Idx → EReal) = transpose S64x2 [1, 0] (m ((c : Thread nD τ).loc main_arg5)) transposes_S2x64_S64x2_1_0 := by
  show StableHlo.after hostOps0 (W0 m ρ c) (Proc.devRef .tc main_v4) = _
  after_results <;> rfl

/-- Buffer 4 is argument 5 transposed. -/
theorem v4_at (c : Dev nD) (p : Fin 64) (q : Fin 2) :
    (V1 m ρ c main_v4 : S64x2.Idx → EReal) (ix2 p q) = (m ((c : Thread nD τ).loc main_arg5) : S2x64.Idx → EReal) (ix2 q p) :=
  (congrFun (V1_v4 m ρ c) (ix2 p q)).trans (Cert.RowOps.swap_apply _ _ p q)

theorem V1_v5 (c : Dev nD) :
    (V1 m ρ c main_v5 : S1x2.Idx → EReal) = broadcastInDim S1x2 ![1] bcast_S2_S1x2_1 (m ((c : Thread nD τ).loc main_arg6)) := by
  show StableHlo.after hostOps0 (W0 m ρ c) (Proc.devRef .tc main_v5) = _
  after_results <;> rfl

/-- Buffer 5 is argument 6 laid out as one row. -/
theorem v5_at (c : Dev nD) (q : Fin 2) :
    (V1 m ρ c main_v5 : S1x2.Idx → EReal) (ix2 (0 : Fin 1) q) = (m ((c : Thread nD τ).loc main_arg6) : S2.Idx → EReal) (ix1 q) :=
  (congrFun (V1_v5 m ρ c) (ix2 (0 : Fin 1) q)).trans (rowOfVec_apply _ _ 0 q)

theorem V1_v6 (c : Dev nD) :
    (V1 m ρ c main_v6 : S1x128.Idx → EReal) = shapeCast S1x128 (m ((c : Thread nD τ).loc main_arg7)) shapeCasts_S128x1_S1x128 := by
  show StableHlo.after hostOps0 (W0 m ρ c) (Proc.devRef .tc main_v6) = _
  after_results <;> rfl

/-- Buffer 6 is the column argument 7 laid out as one row. -/
theorem v6_at (c : Dev nD) (q : Fin 128) :
    (V1 m ρ c main_v6 : S1x128.Idx → EReal) (ix2 (0 : Fin 1) q) = (m ((c : Thread nD τ).loc main_arg7) : S128x1.Idx → EReal) (ix2 q (0 : Fin 1)) :=
  (congrFun (V1_v6 m ρ c) (ix2 (0 : Fin 1) q)).trans
    (shapeCast_apply _ shapeCasts_S128x1_S1x128 (ix2 (0 : Fin 1) q) (ix2 q (0 : Fin 1)) (by
      rewrite [Shape.rowMajor_val_two, Shape.rowMajor_val_two]
      have hq : q.val < 128 := q.isLt
      show q.val * 1 + 0 = 0 * 128 + q.val
      omega))

theorem V1_v7 (c : Dev nD) :
    (V1 m ρ c main_v7 : S1x128.Idx → EReal) = broadcastInDim S1x128 ![1] bcast_S128_S1x128_1 (m ((c : Thread nD τ).loc main_arg8)) := by
  show StableHlo.after hostOps0 (W0 m ρ c) (Proc.devRef .tc main_v7) = _
  after_results <;> rfl

/-- Buffer 7 is argument 8 laid out as one row. -/
theorem v7_at (c : Dev nD) (q : Fin 128) :
    (V1 m ρ c main_v7 : S1x128.Idx → EReal) (ix2 (0 : Fin 1) q) = (m ((c : Thread nD τ).loc main_arg8) : S128.Idx → EReal) (ix1 q) :=
  (congrFun (V1_v7 m ρ c) (ix2 (0 : Fin 1) q)).trans (rowOfVec_apply _ _ 0 q)

theorem V1_v8 (c : Dev nD) :
    (V1 m ρ c main_v8 : S128x64.Idx → EReal) = transpose S128x64 [1, 0] (m ((c : Thread nD τ).loc main_arg9)) transposes_S64x128_S128x64_1_0 := by
  show StableHlo.after hostOps0 (W0 m ρ c) (Proc.devRef .tc main_v8) = _
  after_results <;> rfl

/-- Buffer 8 is argument 9 transposed. -/
theorem v8_at (c : Dev nD) (p : Fin 128) (q : Fin 64) :
    (V1 m ρ c main_v8 : S128x64.Idx → EReal) (ix2 p q) = (m ((c : Thread nD τ).loc main_arg9) : S64x128.Idx → EReal) (ix2 q p) :=
  (congrFun (V1_v8 m ρ c) (ix2 p q)).trans (Cert.RowOps.swap_apply _ _ p q)

theorem V1_v9 (c : Dev nD) :
    (V1 m ρ c main_v9 : S1x64.Idx → EReal) = broadcastInDim S1x64 ![1] bcast_S64_S1x64_1 (m ((c : Thread nD τ).loc main_arg10)) := by
  show StableHlo.after hostOps0 (W0 m ρ c) (Proc.devRef .tc main_v9) = _
  after_results <;> rfl

/-- Buffer 9 is argument 10 laid out as one row. -/
theorem v9_at (c : Dev nD) (q : Fin 64) :
    (V1 m ρ c main_v9 : S1x64.Idx → EReal) (ix2 (0 : Fin 1) q) = (m ((c : Thread nD τ).loc main_arg10) : S64.Idx → EReal) (ix1 q) :=
  (congrFun (V1_v9 m ρ c) (ix2 (0 : Fin 1) q)).trans (rowOfVec_apply _ _ 0 q)

theorem V1_v10 (c : Dev nD) :
    (V1 m ρ c main_v10 : S64x220.Idx → EReal) = transpose S64x220 [1, 0] (m ((c : Thread nD τ).loc main_arg11)) transposes_S220x64_S64x220_1_0 := by
  show StableHlo.after hostOps0 (W0 m ρ c) (Proc.devRef .tc main_v10) = _
  after_results <;> rfl

/-- Buffer 10 is argument 11 transposed. -/
theorem v10_at (c : Dev nD) (p : Fin 64) (q : Fin 220) :
    (V1 m ρ c main_v10 : S64x220.Idx → EReal) (ix2 p q) = (m ((c : Thread nD τ).loc main_arg11) : S220x64.Idx → EReal) (ix2 q p) :=
  (congrFun (V1_v10 m ρ c) (ix2 p q)).trans (Cert.RowOps.swap_apply _ _ p q)

theorem V1_v11 (c : Dev nD) :
    (V1 m ρ c main_v11 : S1x220.Idx → EReal) = broadcastInDim S1x220 ![1] bcast_S220_S1x220_1 (m ((c : Thread nD τ).loc main_arg12)) := by
  show StableHlo.after hostOps0 (W0 m ρ c) (Proc.devRef .tc main_v11) = _
  after_results <;> rfl

/-- Buffer 11 is argument 12 laid out as one row. -/
theorem v11_at (c : Dev nD) (q : Fin 220) :
    (V1 m ρ c main_v11 : S1x220.Idx → EReal) (ix2 (0 : Fin 1) q) = (m ((c : Thread nD τ).loc main_arg12) : S220.Idx → EReal) (ix1 q) :=
  (congrFun (V1_v11 m ρ c) (ix2 (0 : Fin 1) q)).trans (rowOfVec_apply _ _ 0 q)

end Cert.KernelIdeal.KHost

end
-- ==== Proof.KPay0.lean ====
/-
  The folding region's five products, each read at one entry.

  At the ideal instance a matrix product accumulated into zero is the plain sum over the contracted axis, and a cast of
  a vector to its own shape changes nothing.  So the region's stored values are, entry by entry:
  `(W1ᵀ W2ᵀ) W3ᵀ`; `(b1 W2ᵀ + b2) W3ᵀ + b3`; `R1ᵀ R2ᵀ`, then `(R1ᵀ R2ᵀ) R3ᵀ`; and `(c1 R2ᵀ + c2) R3ᵀ + c3` — over
  the transposed weights and one-row biases the region is handed.
-/
import proofs.«176251_g39084202394388_cont_8to1_b_76_3_alg».proof.Proof.Gen.KernelIdeal.Skeleton
import proofs.«176251_g39084202394388_cont_8to1_b_76_3_alg».proof.Proof.LibRowOps

noncomputable section

namespace Cert.KernelIdeal.KPay0

open Cert.KernelIdeal Cert.KernelIdeal.Gen Idealize.ShloMosaic Idealize.ShloMosaic.ValueIdx

/-- Every product of the program contracts the left operand's second axis with the right operand's first. -/
theorem plain_55_64_64 : Cert.RowOps.IsPlain dot_S55x64_S64x64_S55x64_1_0_0_1_n_n := ⟨rfl, rfl, rfl, rfl, rfl, rfl⟩
theorem plain_55_64_2 : Cert.RowOps.IsPlain dot_S55x64_S64x2_S55x2_1_0_0_1_n_n := ⟨rfl, rfl, rfl, rfl, rfl, rfl⟩
theorem plain_1_64_64 : Cert.RowOps.IsPlain dot_S1x64_S64x64_S1x64_1_0_0_1_n_n := ⟨rfl, rfl, rfl, rfl, rfl, rfl⟩
theorem plain_1_64_2 : Cert.RowOps.IsPlain dot_S1x64_S64x2_S1x2_1_0_0_1_n_n := ⟨rfl, rfl, rfl, rfl, rfl, rfl⟩
theorem plain_1_128_64 : Cert.RowOps.IsPlain dot_S1x128_S128x64_S1x64_1_0_0_1_n_n := ⟨rfl, rfl, rfl, rfl, rfl, rfl⟩
theorem plain_1_64_220 : Cert.RowOps.IsPlain dot_S1x64_S64x220_S1x220_1_0_0_1_n_n := ⟨rfl, rfl, rfl, rfl, rfl, rfl⟩

/-- `R1ᵀ R2ᵀ` at column `k`. -/
theorem crow_at (v24 : Vec Ideal S1x128 .f32) (v26 : Vec Ideal S128x64 .f32) (k : Fin 64) :
    k0_pay5 (F := Ideal) v24 v26 (ix2 (0 : Fin 1) k) = ∑ j : Fin 128, v24 (ix2 (0 : Fin 1) j) * v26 (ix2 j k) := by
  unfold k0_pay5
  simp only [shapeCast_self]
  exact Cert.RowOps.matmul_zero_apply plain_1_128_64 none v24 v26 0 k

/-- A row of 64 times `R3ᵀ`, at column `q`. -/
theorem C_at (v28 : FVec Ideal S1x64 .f32) (v29 : Vec Ideal S64x220 .f32) (q : Fin 220) :
    k0_pay1 (F := Ideal) v28 v29 (ix2 (0 : Fin 1) q) = ∑ k : Fin 64, v28 (ix2 (0 : Fin 1) k) * v29 (ix2 k q) := by
  unfold k0_pay1
  simp only [shapeCast_self]
  exact Cert.RowOps.matmul_zero_apply plain_1_64_220 none v28 v29 0 q

/-- `(W1ᵀ W2ᵀ) W3ᵀ` at `(f, c)`. -/
theorem M_at (v0 : Vec Ideal S55x64 .f32) (v2 : Vec Ideal S64x64 .f32) (v5 : Vec Ideal S64x2 .f32) (f : Fin 55) (c : Fin 2) :
    k0_pay3 (F := Ideal) v0 v2 v5 (ix2 f c)
      = ∑ k : Fin 64, (∑ j : Fin 64, v0 (ix2 f j) * v2 (ix2 j k)) * v5 (ix2 k c) := by
  unfold k0_pay3
  simp only [shapeCast_self]
  refine (Cert.RowOps.matmul_zero_apply plain_55_64_2 none _ v5 f c).trans ?_
  refine Finset.sum_congr rfl fun k _ => ?_
  exact congrArg (· * v5 (ix2 k c)) (Cert.RowOps.matmul_zero_apply plain_55_64_64 none v0 v2 f k)

/-- `(b W2ᵀ + b') W3ᵀ + b''` at column `c`, for one-row `b`, `b'`, `b''`. -/
theorem a_at (v9 : Vec Ideal S1x64 .f32) (v11 : Vec Ideal S64x64 .f32) (v14 : Vec Ideal S1x64 .f32) (v17 : Vec Ideal S64x2 .f32)
    (v20 : Vec Ideal S1x2 .f32) (c : Fin 2) :
    k0_pay4 (F := Ideal) v9 v11 v14 v17 v20 (ix2 (0 : Fin 1) c)
      = (∑ k : Fin 64, ((∑ j : Fin 64, v9 (ix2 (0 : Fin 1) j) * v11 (ix2 j k)) + v14 (ix2 (0 : Fin 1) k)) * v17 (ix2 k c))
        + v20 (ix2 (0 : Fin 1) c) := by
  unfold k0_pay4
  simp only [shapeCast_self]
  rw [addf_apply]
  refine congrArg (· + v20 (ix2 (0 : Fin 1) c)) ?_
  refine (Cert.RowOps.matmul_zero_apply plain_1_64_2 none _ v17 0 c).trans ?_
  refine Finset.sum_congr rfl fun k _ => ?_
  rw [addf_apply]
  exact congrArg (fun z => (z + v14 (ix2 (0 : Fin 1) k)) * v17 (ix2 k c)) (Cert.RowOps.matmul_zero_apply plain_1_64_64 none v9 v11 0 k)

/-- `(c R2ᵀ + c') R3ᵀ + c''` at column `q`, for one-row `c`, `c'`, `c''`. -/
theorem d_at (v33 : Vec Ideal S1x128 .f32) (v35 : Vec Ideal S128x64 .f32) (v38 : Vec Ideal S1x64 .f32) (v41 : Vec Ideal S64x220 .f32)
    (v44 : Vec Ideal S1x220 .f32) (q : Fin 220) :
    k0_pay2 (F := Ideal) v33 v35 v38 v41 v44 (ix2 (0 : Fin 1) q)
      = (∑ k : Fin 64, ((∑ j : Fin 128, v33 (ix2 (0 : Fin 1) j) * v35 (ix2 j k)) + v38 (ix2 (0 : Fin 1) k)) * v41 (ix2 k q))
        + v44 (ix2 (0 : Fin 1) q) := by
  unfold k0_pay2
  simp only [shapeCast_self]
  rw [addf_apply]
  refine congrArg (· + v44 (ix2 (0 : Fin 1) q)) ?_
  refine (Cert.RowOps.matmul_zero_apply plain_1_64_220 none _ v41 0 q).trans ?_
  refine Finset.sum_congr rfl fun k _ => ?_
  rw [addf_apply]
  exact congrArg (fun z => (z + v38 (ix2 (0 : Fin 1) k)) * v41 (ix2 k q)) (Cert.RowOps.matmul_zero_apply plain_1_128_64 none v33 v35 0 k)

end Cert.KernelIdeal.KPay0

end
-- ==== Proof.KRegion0.lean ====
/-
  What the folding region leaves in its four result arrays.

  The region has no grid: it runs once, and every window's block is its whole array.  So each input block is the array
  as the region finds it, and each result array ends as the one stored value of whole arrays: the product of the three
  encoder matrices; the encoder's folded bias row; the product of the three decoder matrices (through the intermediate
  row of 64); the decoder's folded bias row.  The entry contents are a parameter `V`.
-/
import proofs.«176251_g39084202394388_cont_8to1_b_76_3_alg».proof.Proof.Gen.KernelIdeal.Frame
import Idealize.ShloMosaic.Lib.Pipeline.Value

noncomputable section

namespace Cert.KernelIdeal.KRegion0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The offsets of a whole-array access are zero on both axes. -/
theorem hz : (![0, 0] : Fin 2 → Nat) = fun _ => 0 := funext fun a => by fin_cases a <;> rfl

/-! ## The input windows: one block, the whole array -/

theorem idx0_0 : ∀ t : Fin cfg0.N, win0_0.index t (0 : Fin 2) = 0 ∧ win0_0.index t (1 : Fin 2) = 0 :=
  (by decide +kernel : ∀ t : Fin grid0.N, _)

/-- Input window 0's block at the region's one point is its whole array. -/
theorem iblk0_0 (c : Dev nD) (t : Fin cfg0.N) : iblk0 V c 0 t = V c main_v0 := by
  funext y
  show V c main_v0 (((cfg0.win 0).blk t).view.emb y) = V c main_v0 y
  refine congrArg (V c main_v0) (funext fun a => Fin.ext ?_)
  obtain ⟨e0, e1⟩ := idx0_0 t
  match a with
  | ⟨0, _⟩ => show win0_0.index t (0 : Fin 2) * 55 + 1 * (y 0).val = (y 0).val; omega
  | ⟨1, _⟩ => show win0_0.index t (1 : Fin 2) * 64 + 1 * (y 1).val = (y 1).val; omega

theorem idx0_1 : ∀ t : Fin cfg0.N, win0_1.index t (0 : Fin 2) = 0 ∧ win0_1.index t (1 : Fin 2) = 0 :=
  (by decide +kernel : ∀ t : Fin grid0.N, _)

/-- Input window 1's block at the region's one point is its whole array. -/
theorem iblk0_1 (c : Dev nD) (t : Fin cfg0.N) : iblk0 V c 1 t = V c main_v1 := by
  funext y
  show V c main_v1 (((cfg0.win 1).blk t).view.emb y) = V c main_v1 y
  refine congrArg (V c main_v1) (funext fun a => Fin.ext ?_)
  obtain ⟨e0, e1⟩ := idx0_1 t
  match a with
  | ⟨0, _⟩ => show win0_1.index t (0 : Fin 2) * 1 + 1 * (y 0).val = (y 0).val; omega
  | ⟨1, _⟩ => show win0_1.index t (1 : Fin 2) * 64 + 1 * (y 1).val = (y 1).val; omega

theorem idx0_2 : ∀ t : Fin cfg0.N, win0_2.index t (0 : Fin 2) = 0 ∧ win0_2.index t (1 : Fin 2) = 0 :=
  (by decide +kernel : ∀ t : Fin grid0.N, _)

/-- Input window 2's block at the region's one point is its whole array. -/
theorem iblk0_2 (c : Dev nD) (t : Fin cfg0.N) : iblk0 V c 2 t = V c main_v2 := by
  funext y
  show V c main_v2 (((cfg0.win 2).blk t).view.emb y) = V c main_v2 y
  refine congrArg (V c main_v2) (funext fun a => Fin.ext ?_)
  obtain ⟨e0, e1⟩ := idx0_2 t
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem idx0_3 : ∀ t : Fin cfg0.N, win0_3.index t (0 : Fin 2) = 0 ∧ win0_3.index t (1 : Fin 2) = 0 :=
  (by decide +kernel : ∀ t : Fin grid0.N, _)

/-- Input window 3's block at the region's one point is its whole array. -/
theorem iblk0_3 (c : Dev nD) (t : Fin cfg0.N) : iblk0 V c 3 t = V c main_v3 := by
  funext y
  show V c main_v3 (((cfg0.win 3).blk t).view.emb y) = V c main_v3 y
  refine congrArg (V c main_v3) (funext fun a => Fin.ext ?_)
  obtain ⟨e0, e1⟩ := idx0_3 t
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem idx0_4 : ∀ t : Fin cfg0.N, win0_4.index t (0 : Fin 2) = 0 ∧ win0_4.index t (1 : Fin 2) = 0 :=
  (by decide +kernel : ∀ t : Fin grid0.N, _)

/-- Input window 4's block at the region's one point is its whole array. -/
theorem iblk0_4 (c : Dev nD) (t : Fin cfg0.N) : iblk0 V c 4 t = V c main_v4 := by
  funext y
  show V c main_v4 (((cfg0.win 4).blk t).view.emb y) = V c main_v4 y
  refine congrArg (V c main_v4) (funext fun a => Fin.ext ?_)
  obtain ⟨e0, e1⟩ := idx0_4 t
  match a with
  | ⟨0, _⟩ => show win0_4.index t (0 : Fin 2) * 64 + 1 * (y 0).val = (y 0).val; omega
  | ⟨1, _⟩ => show win0_4.index t (1 : Fin 2) * 2 + 1 * (y 1).val = (y 1).val; omega

theorem idx0_5 : ∀ t : Fin cfg0.N, win0_5.index t (0 : Fin 2) = 0 ∧ win0_5.index t (1 : Fin 2) = 0 :=
  (by decide +kernel : ∀ t : Fin grid0.N, _)

/-- Input window 5's block at the region's one point is its whole array. -/
theorem iblk0_5 (c : Dev nD) (t : Fin cfg0.N) : iblk0 V c 5 t = V c main_v5 := by
  funext y
  show V c main_v5 (((cfg0.win 5).blk t).view.emb y) = V c main_v5 y
  refine congrArg (V c main_v5) (funext fun a => Fin.ext ?_)
  obtain ⟨e0, e1⟩ := idx0_5 t
  match a with
  | ⟨0, _⟩ => show win0_5.index t (0 : Fin 2) * 1 + 1 * (y 0).val = (y 0).val; omega
  | ⟨1, _⟩ => show win0_5.index t (1 : Fin 2) * 2 + 1 * (y 1).val = (y 1).val; omega

theorem idx0_6 : ∀ t : Fin cfg0.N, win0_6.index t (0 : Fin 2) = 0 ∧ win0_6.index t (1 : Fin 2) = 0 :=
  (by decide +kernel : ∀ t : Fin grid0.N, _)

/-- Input window 6's block at the region's one point is its whole array. -/
theorem iblk0_6 (c : Dev nD) (t : Fin cfg0.N) : iblk0 V c 6 t = V c main_v6 := by
  funext y
  show V c main_v6 (((cfg0.win 6).blk t).view.emb y) = V c main_v6 y
  refine congrArg (V c main_v6) (funext fun a => Fin.ext ?_)
  obtain ⟨e0, e1⟩ := idx0_6 t
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem idx0_7 : ∀ t : Fin cfg0.N, win0_7.index t (0 : Fin 2) = 0 ∧ win0_7.index t (1 : Fin 2) = 0 :=
  (by decide +kernel : ∀ t : Fin grid0.N, _)

/-- Input window 7's block at the region's one point is its whole array. -/
theorem iblk0_7 (c : Dev nD) (t : Fin cfg0.N) : iblk0 V c 7 t = V c main_v7 := by
  funext y
  show V c main_v7 (((cfg0.win 7).blk t).view.emb y) = V c main_v7 y
  refine congrArg (V c main_v7) (funext fun a => Fin.ext ?_)
  obtain ⟨e0, e1⟩ := idx0_7 t
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem idx0_8 : ∀ t : Fin cfg0.N, win0_8.index t (0 : Fin 2) = 0 ∧ win0_8.index t (1 : Fin 2) = 0 :=
  (by decide +kernel : ∀ t : Fin grid0.N, _)

/-- Input window 8's block at the region's one point is its whole array. -/
theorem iblk0_8 (c : Dev nD) (t : Fin cfg0.N) : iblk0 V c 8 t = V c main_v8 := by
  funext y
  show V c main_v8 (((cfg0.win 8).blk t).view.emb y) = V c main_v8 y
  refine congrArg (V c main_v8) (funext fun a => Fin.ext ?_)
  obtain ⟨e0, e1⟩ := idx0_8 t
  match a with
  | ⟨0, _⟩ => show win0_8.index t (0 : Fin 2) * 128 + 1 * (y 0).val = (y 0).val; omega
  | ⟨1, _⟩ => show win0_8.index t (1 : Fin 2) * 64 + 1 * (y 1).val = (y 1).val; omega

theorem idx0_9 : ∀ t : Fin cfg0.N, win0_9.index t (0 : Fin 2) = 0 ∧ win0_9.index t (1 : Fin 2) = 0 :=
  (by decide +kernel : ∀ t : Fin grid0.N, _)

/-- Input window 9's block at the region's one point is its whole array. -/
theorem iblk0_9 (c : Dev nD) (t : Fin cfg0.N) : iblk0 V c 9 t = V c main_v9 := by
  funext y
  show V c main_v9 (((cfg0.win 9).blk t).view.emb y) = V c main_v9 y
  refine congrArg (V c main_v9) (funext fun a => Fin.ext ?_)
  obtain ⟨e0, e1⟩ := idx0_9 t
  match a with
  | ⟨0, _⟩ => show win0_9.index t (0 : Fin 2) * 1 + 1 * (y 0).val = (y 0).val; omega
  | ⟨1, _⟩ => show win0_9.index t (1 : Fin 2) * 64 + 1 * (y 1).val = (y 1).val; omega

theorem idx0_10 : ∀ t : Fin cfg0.N, win0_10.index t (0 : Fin 2) = 0 ∧ win0_10.index t (1 : Fin 2) = 0 :=
  (by decide +kernel : ∀ t : Fin grid0.N, _)

/-- Input window 10's block at the region's one point is its whole array. -/
theorem iblk0_10 (c : Dev nD) (t : Fin cfg0.N) : iblk0 V c 10 t = V c main_v10 := by
  funext y
  show V c main_v10 (((cfg0.win 10).blk t).view.emb y) = V c main_v10 y
  refine congrArg (V c main_v10) (funext fun a => Fin.ext ?_)
  obtain ⟨e0, e1⟩ := idx0_10 t
  match a with
  | ⟨0, _⟩ => show win0_10.index t (0 : Fin 2) * 64 + 1 * (y 0).val = (y 0).val; omega
  | ⟨1, _⟩ => show win0_10.index t (1 : Fin 2) * 220 + 1 * (y 1).val = (y 1).val; omega

theorem idx0_11 : ∀ t : Fin cfg0.N, win0_11.index t (0 : Fin 2) = 0 ∧ win0_11.index t (1 : Fin 2) = 0 :=
  (by decide +kernel : ∀ t : Fin grid0.N, _)

/-- Input window 11's block at the region's one point is its whole array. -/
theorem iblk0_11 (c : Dev nD) (t : Fin cfg0.N) : iblk0 V c 11 t = V c main_v11 := by
  funext y
  show V c main_v11 (((cfg0.win 11).blk t).view.emb y) = V c main_v11 y
  refine congrArg (V c main_v11) (funext fun a => Fin.ext ?_)
  obtain ⟨e0, e1⟩ := idx0_11 t
  match a with
  | ⟨0, _⟩ => show win0_11.index t (0 : Fin 2) * 1 + 1 * (y 0).val = (y 0).val; omega
  | ⟨1, _⟩ => show win0_11.index t (1 : Fin 2) * 220 + 1 * (y 1).val = (y 1).val; omega

/-! ## The output windows -/

theorem idx0_12 : ∀ t : Fin cfg0.N, win0_12.index t (0 : Fin 2) = 0 ∧ win0_12.index t (1 : Fin 2) = 0 :=
  (by decide +kernel : ∀ t : Fin grid0.N, _)

/-- What the region's one point writes back to output window 12 is the whole of the product of the three encoder matrices it is handed. -/
theorem flushed0_12_eq (c : Dev nD) (t : Fin cfg0.N) :
    (dat0 V c).flushed 12 t = ((cfg0.win 12).blk t).view.read (Elt F) (k0_pay3 (V c main_v0) (V c main_v2) (V c main_v4)) := by
  show (cfg0.win 12).cut (grid0.coords t) ((dat0 V c).after 12 t) = _
  rw [after0_12]
  unfold out0_12
  rw [View.canon_unit_zero hz]
  simp only [View.ld_unit_zero (S := S55x64) hz, View.ld_unit_zero (S := S64x64) hz, View.ld_unit_zero (S := S64x2) hz]
  rw [iblk0_0, iblk0_2, iblk0_4]
  funext y
  show (k0_pay3 (V c main_v0) (V c main_v2) (V c main_v4)) y = (k0_pay3 (V c main_v0) (V c main_v2) (V c main_v4)) (((cfg0.win 12).blk t).view.emb y)
  refine congrArg _ (funext fun a => Fin.ext ?_)
  obtain ⟨e0, e1⟩ := idx0_12 t
  match a with
  | ⟨0, _⟩ => show (y 0).val = win0_12.index t (0 : Fin 2) * 55 + 1 * (y 0).val; omega
  | ⟨1, _⟩ => show (y 1).val = win0_12.index t (1 : Fin 2) * 2 + 1 * (y 1).val; omega

theorem mem_blk0_12 (t : Fin cfg0.N) (i : S55x2.Idx) :
    i ∈ ((cfg0.win 12).blk t).view.set ↔ ∀ a : Fin 2, win0_12.index t a * S55x2.size a ≤ (i a).val ∧ (i a).val < win0_12.index t a * S55x2.size a + S55x2.size a := by
  show i ∈ ((View.whole main_v12_0).slice (win0_12.rect t)).set ↔ _
  rw [View.set_slice_whole, Rect.mem_set_unit]
  exact Iff.rfl

/-- The one block is the whole array: every index is covered. -/
theorem cover0_12_all (i : S55x2.Idx) : ∃ t : Fin cfg0.N, (cfg0.win 12).flush t = true ∧ i ∈ ((cfg0.win 12).blk t).view.set := by
  obtain ⟨t, -⟩ := (by decide +kernel : ∃ t : Fin grid0.N, win0_12.index t (0 : Fin 2) = 0)
  refine ⟨t, flush0_12 t, ?_⟩
  rw [mem_blk0_12]
  obtain ⟨e0, e1⟩ := idx0_12 t
  have h0 : (i 0).val < 55 := (i 0).isLt
  have h1 : (i 1).val < 2 := (i 1).isLt
  intro a
  match a with
  | ⟨0, _⟩ => show win0_12.index t (0 : Fin 2) * 55 ≤ (i 0).val ∧ (i 0).val < win0_12.index t (0 : Fin 2) * 55 + 55; omega
  | ⟨1, _⟩ => show win0_12.index t (1 : Fin 2) * 2 ≤ (i 1).val ∧ (i 1).val < win0_12.index t (1 : Fin 2) * 2 + 2; omega

/-- After the region, output window 12's array is the product of the three encoder matrices it is handed. -/
theorem final0_12 (c : Dev nD) : (dat0 V c).arrAt 12 cfg0.N = k0_pay3 (V c main_v0) (V c main_v2) (V c main_v4) :=
  (dat0 V c).arrAt_eq_of_cover 12 _ (fun t _ => flushed0_12_eq V c t) (cover0_12_all)

theorem idx0_13 : ∀ t : Fin cfg0.N, win0_13.index t (0 : Fin 2) = 0 ∧ win0_13.index t (1 : Fin 2) = 0 :=
  (by decide +kernel : ∀ t : Fin grid0.N, _)

/-- What the region's one point writes back to output window 13 is the whole of the encoder's bias rows folded through the second and third matrices. -/
theorem flushed0_13_eq (c : Dev nD) (t : Fin cfg0.N) :
    (dat0 V c).flushed 13 t = ((cfg0.win 13).blk t).view.read (Elt F) (k0_pay4 (V c main_v1) (V c main_v2) (V c main_v3) (V c main_v4) (V c main_v5)) := by
  show (cfg0.win 13).cut (grid0.coords t) ((dat0 V c).after 13 t) = _
  rw [after0_13]
  unfold out0_13
  rw [View.canon_unit_zero hz]
  simp only [View.ld_unit_zero (S := S1x64) hz, View.ld_unit_zero (S := S64x64) hz, View.ld_unit_zero (S := S64x2) hz, View.ld_unit_zero (S := S1x2) hz]
  rw [iblk0_1, iblk0_2, iblk0_3, iblk0_4, iblk0_5]
  funext y
  show (k0_pay4 (V c main_v1) (V c main_v2) (V c main_v3) (V c main_v4) (V c main_v5)) y = (k0_pay4 (V c main_v1) (V c main_v2) (V c main_v3) (V c main_v4) (V c main_v5)) (((cfg0.win 13).blk t).view.emb y)
  refine congrArg _ (funext fun a => Fin.ext ?_)
  obtain ⟨e0, e1⟩ := idx0_13 t
  match a with
  | ⟨0, _⟩ => show (y 0).val = win0_13.index t (0 : Fin 2) * 1 + 1 * (y 0).val; omega
  | ⟨1, _⟩ => show (y 1).val = win0_13.index t (1 : Fin 2) * 2 + 1 * (y 1).val; omega

theorem mem_blk0_13 (t : Fin cfg0.N) (i : S1x2.Idx) :
    i ∈ ((cfg0.win 13).blk t).view.set ↔ ∀ a : Fin 2, win0_13.index t a * S1x2.size a ≤ (i a).val ∧ (i a).val < win0_13.index t a * S1x2.size a + S1x2.size a := by
  show i ∈ ((View.whole main_v12_1).slice (win0_13.rect t)).set ↔ _
  rw [View.set_slice_whole, Rect.mem_set_unit]
  exact Iff.rfl

/-- The one block is the whole array: every index is covered. -/
theorem cover0_13_all (i : S1x2.Idx) : ∃ t : Fin cfg0.N, (cfg0.win 13).flush t = true ∧ i ∈ ((cfg0.win 13).blk t).view.set := by
  obtain ⟨t, -⟩ := (by decide +kernel : ∃ t : Fin grid0.N, win0_13.index t (0 : Fin 2) = 0)
  refine ⟨t, flush0_13 t, ?_⟩
  rw [mem_blk0_13]
  obtain ⟨e0, e1⟩ := idx0_13 t
  have h0 : (i 0).val < 1 := (i 0).isLt
  have h1 : (i 1).val < 2 := (i 1).isLt
  intro a
  match a with
  | ⟨0, _⟩ => show win0_13.index t (0 : Fin 2) * 1 ≤ (i 0).val ∧ (i 0).val < win0_13.index t (0 : Fin 2) * 1 + 1; omega
  | ⟨1, _⟩ => show win0_13.index t (1 : Fin 2) * 2 ≤ (i 1).val ∧ (i 1).val < win0_13.index t (1 : Fin 2) * 2 + 2; omega

/-- After the region, output window 13's array is the encoder's bias rows folded through the second and third matrices. -/
theorem final0_13 (c : Dev nD) : (dat0 V c).arrAt 13 cfg0.N = k0_pay4 (V c main_v1) (V c main_v2) (V c main_v3) (V c main_v4) (V c main_v5) :=
  (dat0 V c).arrAt_eq_of_cover 13 _ (fun t _ => flushed0_13_eq V c t) (cover0_13_all)

theorem idx0_14 : ∀ t : Fin cfg0.N, win0_14.index t (0 : Fin 2) = 0 ∧ win0_14.index t (1 : Fin 2) = 0 :=
  (by decide +kernel : ∀ t : Fin grid0.N, _)

/-- What the region's one point writes back to output window 14 is the whole of the product of the three decoder matrices it is handed. -/
theorem flushed0_14_eq (c : Dev nD) (t : Fin cfg0.N) :
    (dat0 V c).flushed 14 t = ((cfg0.win 14).blk t).view.read (Elt F) (k0_pay1 (k0_pay5 (V c main_v6) (V c main_v8)) (V c main_v10)) := by
  show (cfg0.win 14).cut (grid0.coords t) ((dat0 V c).after 14 t) = _
  rw [after0_14]
  unfold out0_14
  rw [View.canon_unit_zero hz]
  simp only [View.ld_unit_zero (S := S1x128) hz, View.ld_unit_zero (S := S128x64) hz, View.ld_unit_zero (S := S64x220) hz]
  rw [iblk0_6, iblk0_8, iblk0_10]
  funext y
  show (k0_pay1 (k0_pay5 (V c main_v6) (V c main_v8)) (V c main_v10)) y = (k0_pay1 (k0_pay5 (V c main_v6) (V c main_v8)) (V c main_v10)) (((cfg0.win 14).blk t).view.emb y)
  refine congrArg _ (funext fun a => Fin.ext ?_)
  obtain ⟨e0, e1⟩ := idx0_14 t
  match a with
  | ⟨0, _⟩ => show (y 0).val = win0_14.index t (0 : Fin 2) * 1 + 1 * (y 0).val; omega
  | ⟨1, _⟩ => show (y 1).val = win0_14.index t (1 : Fin 2) * 220 + 1 * (y 1).val; omega

theorem mem_blk0_14 (t : Fin cfg0.N) (i : S1x220.Idx) :
    i ∈ ((cfg0.win 14).blk t).view.set ↔ ∀ a : Fin 2, win0_14.index t a * S1x220.size a ≤ (i a).val ∧ (i a).val < win0_14.index t a * S1x220.size a + S1x220.size a := by
  show i ∈ ((View.whole main_v12_2).slice (win0_14.rect t)).set ↔ _
  rw [View.set_slice_whole, Rect.mem_set_unit]
  exact Iff.rfl

/-- The one block is the whole array: every index is covered. -/
theorem cover0_14_all (i : S1x220.Idx) : ∃ t : Fin cfg0.N, (cfg0.win 14).flush t = true ∧ i ∈ ((cfg0.win 14).blk t).view.set := by
  obtain ⟨t, -⟩ := (by decide +kernel : ∃ t : Fin grid0.N, win0_14.index t (0 : Fin 2) = 0)
  refine ⟨t, flush0_14 t, ?_⟩
  rw [mem_blk0_14]
  obtain ⟨e0, e1⟩ := idx0_14 t
  have h0 : (i 0).val < 1 := (i 0).isLt
  have h1 : (i 1).val < 220 := (i 1).isLt
  intro a
  match a with
  | ⟨0, _⟩ => show win0_14.index t (0 : Fin 2) * 1 ≤ (i 0).val ∧ (i 0).val < win0_14.index t (0 : Fin 2) * 1 + 1; omega
  | ⟨1, _⟩ => show win0_14.index t (1 : Fin 2) * 220 ≤ (i 1).val ∧ (i 1).val < win0_14.index t (1 : Fin 2) * 220 + 220; omega

/-- After the region, output window 14's array is the product of the three decoder matrices it is handed. -/
theorem final0_14 (c : Dev nD) : (dat0 V c).arrAt 14 cfg0.N = k0_pay1 (k0_pay5 (V c main_v6) (V c main_v8)) (V c main_v10) :=
  (dat0 V c).arrAt_eq_of_cover 14 _ (fun t _ => flushed0_14_eq V c t) (cover0_14_all)

theorem idx0_15 : ∀ t : Fin cfg0.N, win0_15.index t (0 : Fin 2) = 0 ∧ win0_15.index t (1 : Fin 2) = 0 :=
  (by decide +kernel : ∀ t : Fin grid0.N, _)

/-- What the region's one point writes back to output window 15 is the whole of the decoder's bias rows folded through the second and third matrices. -/
theorem flushed0_15_eq (c : Dev nD) (t : Fin cfg0.N) :
    (dat0 V c).flushed 15 t = ((cfg0.win 15).blk t).view.read (Elt F) (k0_pay2 (V c main_v7) (V c main_v8) (V c main_v9) (V c main_v10) (V c main_v11)) := by
  show (cfg0.win 15).cut (grid0.coords t) ((dat0 V c).after 15 t) = _
  rw [after0_15]
  unfold out0_15
  rw [View.canon_unit_zero hz]
  simp only [View.ld_unit_zero (S := S1x128) hz, View.ld_unit_zero (S := S128x64) hz, View.ld_unit_zero (S := S1x64) hz, View.ld_unit_zero (S := S64x220) hz, View.ld_unit_zero (S := S1x220) hz]
  rw [iblk0_7, iblk0_8, iblk0_9, iblk0_10, iblk0_11]
  funext y
  show (k0_pay2 (V c main_v7) (V c main_v8) (V c main_v9) (V c main_v10) (V c main_v11)) y = (k0_pay2 (V c main_v7) (V c main_v8) (V c main_v9) (V c main_v10) (V c main_v11)) (((cfg0.win 15).blk t).view.emb y)
  refine congrArg _ (funext fun a => Fin.ext ?_)
  obtain ⟨e0, e1⟩ := idx0_15 t
  match a with
  | ⟨0, _⟩ => show (y 0).val = win0_15.index t (0 : Fin 2) * 1 + 1 * (y 0).val; omega
  | ⟨1, _⟩ => show (y 1).val = win0_15.index t (1 : Fin 2) * 220 + 1 * (y 1).val; omega

theorem mem_blk0_15 (t : Fin cfg0.N) (i : S1x220.Idx) :
    i ∈ ((cfg0.win 15).blk t).view.set ↔ ∀ a : Fin 2, win0_15.index t a * S1x220.size a ≤ (i a).val ∧ (i a).val < win0_15.index t a * S1x220.size a + S1x220.size a := by
  show i ∈ ((View.whole main_v12_3).slice (win0_15.rect t)).set ↔ _
  rw [View.set_slice_whole, Rect.mem_set_unit]
  exact Iff.rfl

/-- The one block is the whole array: every index is covered. -/
theorem cover0_15_all (i : S1x220.Idx) : ∃ t : Fin cfg0.N, (cfg0.win 15).flush t = true ∧ i ∈ ((cfg0.win 15).blk t).view.set := by
  obtain ⟨t, -⟩ := (by decide +kernel : ∃ t : Fin grid0.N, win0_15.index t (0 : Fin 2) = 0)
  refine ⟨t, flush0_15 t, ?_⟩
  rw [mem_blk0_15]
  obtain ⟨e0, e1⟩ := idx0_15 t
  have h0 : (i 0).val < 1 := (i 0).isLt
  have h1 : (i 1).val < 220 := (i 1).isLt
  intro a
  match a with
  | ⟨0, _⟩ => show win0_15.index t (0 : Fin 2) * 1 ≤ (i 0).val ∧ (i 0).val < win0_15.index t (0 : Fin 2) * 1 + 1; omega
  | ⟨1, _⟩ => show win0_15.index t (1 : Fin 2) * 220 ≤ (i 1).val ∧ (i 1).val < win0_15.index t (1 : Fin 2) * 220 + 220; omega

/-- After the region, output window 15's array is the decoder's bias rows folded through the second and third matrices. -/
theorem final0_15 (c : Dev nD) : (dat0 V c).arrAt 15 cfg0.N = k0_pay2 (V c main_v7) (V c main_v8) (V c main_v9) (V c main_v10) (V c main_v11) :=
  (dat0 V c).arrAt_eq_of_cover 15 _ (fun t _ => flushed0_15_eq V c t) (cover0_15_all)

end Cert.KernelIdeal.KRegion0

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.Spec.lean ====
/-
  The two arrangements of one affine network.

  The network takes a batch of 16384 rows of 55 features through three affine layers (55 → 64 → 64 → 2), reads the two
  outputs of a row as a mean and a spread, forms the sample `mean + spread · e` with the row's noise `e`, and takes that
  one number through three more affine layers (1 → 128 → 64 → 220).  The activation between layers is the identity, so
  each chain of three layers is itself one affine map.

  LAYERED: the layers applied to the batch one after the other (`h1`, `h2`, `z`; `r1`, `r2`, `p`).
  FOLDED: each chain composed first, on the weights alone — `M = W1ᵀ W2ᵀ W3ᵀ` with the bias row
  `a = (b1 W2ᵀ + b2) W3ᵀ + b3`, and `C = R1ᵀ R2ᵀ R3ᵀ` with `d = (c1 R2ᵀ + c2) R3ᵀ + c3` — and then applied to the batch
  (`zf`, `pf`).

  Everything is a finite sum of products over a carrier with an addition and a multiplication, so the same text reads
  over the reals and over the extended reals.
-/
import Mathlib.Algebra.BigOperators.Group.Finset.Basic
import Mathlib.Data.Fintype.BigOperators

open scoped BigOperators

namespace Cert.Spec

/-- The weights, biases, batch and noise of the network, each array as a function of its coordinates
    (`W1 j f` is row `j`, column `f` of the first layer's [64, 55] matrix; `x r f` is feature `f` of row `r`). -/
structure Net (α : Type) where
  x : Fin 16384 → Fin 55 → α
  W1 : Fin 64 → Fin 55 → α
  b1 : Fin 64 → α
  W2 : Fin 64 → Fin 64 → α
  b2 : Fin 64 → α
  W3 : Fin 2 → Fin 64 → α
  b3 : Fin 2 → α
  R1 : Fin 128 → α
  c1 : Fin 128 → α
  R2 : Fin 64 → Fin 128 → α
  c2 : Fin 64 → α
  R3 : Fin 220 → Fin 64 → α
  c3 : Fin 220 → α
  e : Fin 16384 → α

/-- The same network with every entry carried along `g`. -/
def Net.map {α β : Type} (g : α → β) (N : Net α) : Net β where
  x r f := g (N.x r f)
  W1 j f := g (N.W1 j f)
  b1 j := g (N.b1 j)
  W2 k j := g (N.W2 k j)
  b2 k := g (N.b2 k)
  W3 c k := g (N.W3 c k)
  b3 c := g (N.b3 c)
  R1 j := g (N.R1 j)
  c1 j := g (N.c1 j)
  R2 k j := g (N.R2 k j)
  c2 k := g (N.c2 k)
  R3 q k := g (N.R3 q k)
  c3 q := g (N.c3 q)
  e r := g (N.e r)

variable {α : Type} [AddCommMonoid α] [Mul α] (N : Net α)

/-! ## Layered: one layer after the other -/

/-- First encoder layer: `x W1ᵀ + b1`. -/
def Net.h1 (r : Fin 16384) (j : Fin 64) : α := (∑ f, N.x r f * N.W1 j f) + N.b1 j
/-- Second encoder layer: `h1 W2ᵀ + b2`. -/
def Net.h2 (r : Fin 16384) (k : Fin 64) : α := (∑ j, N.h1 r j * N.W2 k j) + N.b2 k
/-- Third encoder layer: `h2 W3ᵀ + b3`; column 0 is the mean, column 1 the spread. -/
def Net.z (r : Fin 16384) (c : Fin 2) : α := (∑ k, N.h2 r k * N.W3 c k) + N.b3 c
/-- The sample of a row: mean plus spread times the row's noise. -/
def Net.s (r : Fin 16384) : α := N.z r 0 + N.z r 1 * N.e r
/-- First decoder layer, from the one sampled number: `s R1ᵀ + c1`. -/
def Net.r1 (r : Fin 16384) (j : Fin 128) : α := N.s r * N.R1 j + N.c1 j
/-- Second decoder layer: `r1 R2ᵀ + c2`. -/
def Net.r2 (r : Fin 16384) (k : Fin 64) : α := (∑ j, N.r1 r j * N.R2 k j) + N.c2 k
/-- Third decoder layer: `r2 R3ᵀ + c3`, the 220 produced features of a row. -/
def Net.p (r : Fin 16384) (q : Fin 220) : α := (∑ k, N.r2 r k * N.R3 q k) + N.c3 q

/-! ## Folded: the chains composed on the weights first -/

/-- `W1ᵀ W2ᵀ`. -/
def Net.T12 (f : Fin 55) (k : Fin 64) : α := ∑ j, N.W1 j f * N.W2 k j
/-- `(W1ᵀ W2ᵀ) W3ᵀ`: the encoder's one matrix. -/
def Net.M (f : Fin 55) (c : Fin 2) : α := ∑ k, N.T12 f k * N.W3 c k
/-- `b1 W2ᵀ + b2`. -/
def Net.arow (k : Fin 64) : α := (∑ j, N.b1 j * N.W2 k j) + N.b2 k
/-- `(b1 W2ᵀ + b2) W3ᵀ + b3`: the encoder's one bias row. -/
def Net.a (c : Fin 2) : α := (∑ k, N.arow k * N.W3 c k) + N.b3 c
/-- `R1ᵀ R2ᵀ`, a row of 64. -/
def Net.crow (k : Fin 64) : α := ∑ j, N.R1 j * N.R2 k j
/-- `(R1ᵀ R2ᵀ) R3ᵀ`: the decoder's one row of 220. -/
def Net.C (q : Fin 220) : α := ∑ k, N.crow k * N.R3 q k
/-- `c1 R2ᵀ + c2`. -/
def Net.drow (k : Fin 64) : α := (∑ j, N.c1 j * N.R2 k j) + N.c2 k
/-- `(c1 R2ᵀ + c2) R3ᵀ + c3`: the decoder's one bias row. -/
def Net.d (q : Fin 220) : α := (∑ k, N.drow k * N.R3 q k) + N.c3 q
/-- The encoder applied in one step: `x M + a`. -/
def Net.zf (r : Fin 16384) (c : Fin 2) : α := (∑ f, N.x r f * N.M f c) + N.a c
/-- The sample from the folded encoder. -/
def Net.sf (r : Fin 16384) : α := N.zf r 0 + N.zf r 1 * N.e r
/-- The decoder applied in one step: `s C + d`. -/
def Net.pf (r : Fin 16384) (q : Fin 220) : α := N.sf r * N.C q + N.d q

end Cert.Spec
-- ==== Proof.NetOf.lean ====
/-
  The network read off the fourteen argument arrays.

  The batch arrives as [16384, 5, 11]: feature `f` of a row is the entry at `(f / 11, f % 11)` of the row's 5 × 11 grid
  (row-major flattening).  The first decoder weight arrives as a [128, 1] column and the noise as a [16384, 1] column; the
  biases arrive as vectors.  The produced features leave as [16384, 20, 11]: cell `(h, w)` of a row's 20 × 11 grid is
  produced feature `11 h + w`.
-/
import proofs.«176251_g39084202394388_cont_8to1_b_76_3_alg».proof.Proof.Spec
import Idealize.ShloMosaic.Lib.ValueIdx

namespace Cert.Spec

open Idealize.ShloMosaic Idealize.ShloMosaic.ValueIdx

/-- The row of the 5 × 11 grid that holds feature `f`. -/
def featRow (f : Fin 55) : Fin 5 := ⟨f.val / 11, by have := f.isLt; omega⟩
/-- The column of the 5 × 11 grid that holds feature `f`. -/
def featCol (f : Fin 55) : Fin 11 := ⟨f.val % 11, Nat.mod_lt _ (by decide)⟩
/-- The produced feature held by cell `(h, w)` of the 20 × 11 grid. -/
def cell (h : Fin 20) (w : Fin 11) : Fin 220 := ⟨h.val * 11 + w.val, by have := h.isLt; have := w.isLt; omega⟩

/-- The network whose parameters, batch and noise are the entries of the fourteen arrays, in the program's argument
    order: the batch, then weight and bias of each of the six layers, then the noise. -/
def netOf {α : Type}
    (X : (⟨3, ![16384, 5, 11]⟩ : Shape).Idx → α)
    (A1 : (⟨2, ![64, 55]⟩ : Shape).Idx → α) (B1 : (⟨1, ![64]⟩ : Shape).Idx → α)
    (A2 : (⟨2, ![64, 64]⟩ : Shape).Idx → α) (B2 : (⟨1, ![64]⟩ : Shape).Idx → α)
    (A3 : (⟨2, ![2, 64]⟩ : Shape).Idx → α) (B3 : (⟨1, ![2]⟩ : Shape).Idx → α)
    (Q1 : (⟨2, ![128, 1]⟩ : Shape).Idx → α) (D1 : (⟨1, ![128]⟩ : Shape).Idx → α)
    (Q2 : (⟨2, ![64, 128]⟩ : Shape).Idx → α) (D2 : (⟨1, ![64]⟩ : Shape).Idx → α)
    (Q3 : (⟨2, ![220, 64]⟩ : Shape).Idx → α) (D3 : (⟨1, ![220]⟩ : Shape).Idx → α)
    (E : (⟨2, ![16384, 1]⟩ : Shape).Idx → α) : Net α where
  x r f := X (ix3 r (featRow f) (featCol f))
  W1 j f := A1 (ix2 j f)
  b1 j := B1 (ix1 j)
  W2 k j := A2 (ix2 k j)
  b2 k := B2 (ix1 k)
  W3 c k := A3 (ix2 c k)
  b3 c := B3 (ix1 c)
  R1 j := Q1 (ix2 j (0 : Fin 1))
  c1 j := D1 (ix1 j)
  R2 k j := Q2 (ix2 k j)
  c2 k := D2 (ix1 k)
  R3 q k := Q3 (ix2 q k)
  c3 q := D3 (ix1 q)
  e r := E (ix2 r (0 : Fin 1))

/-- Carrying every array along `g` entry by entry carries the network along `g`. -/
theorem netOf_comp {α β : Type} (g : α → β)
    (X : (⟨3, ![16384, 5, 11]⟩ : Shape).Idx → α)
    (A1 : (⟨2, ![64, 55]⟩ : Shape).Idx → α) (B1 : (⟨1, ![64]⟩ : Shape).Idx → α)
    (A2 : (⟨2, ![64, 64]⟩ : Shape).Idx → α) (B2 : (⟨1, ![64]⟩ : Shape).Idx → α)
    (A3 : (⟨2, ![2, 64]⟩ : Shape).Idx → α) (B3 : (⟨1, ![2]⟩ : Shape).Idx → α)
    (Q1 : (⟨2, ![128, 1]⟩ : Shape).Idx → α) (D1 : (⟨1, ![128]⟩ : Shape).Idx → α)
    (Q2 : (⟨2, ![64, 128]⟩ : Shape).Idx → α) (D2 : (⟨1, ![64]⟩ : Shape).Idx → α)
    (Q3 : (⟨2, ![220, 64]⟩ : Shape).Idx → α) (D3 : (⟨1, ![220]⟩ : Shape).Idx → α)
    (E : (⟨2, ![16384, 1]⟩ : Shape).Idx → α) :
    netOf (fun i => g (X i)) (fun i => g (A1 i)) (fun i => g (B1 i)) (fun i => g (A2 i)) (fun i => g (B2 i))
      (fun i => g (A3 i)) (fun i => g (B3 i)) (fun i => g (Q1 i)) (fun i => g (D1 i)) (fun i => g (Q2 i))
      (fun i => g (D2 i)) (fun i => g (Q3 i)) (fun i => g (D3 i)) (fun i => g (E i))
    = (netOf X A1 B1 A2 B2 A3 B3 Q1 D1 Q2 D2 Q3 D3 E).map g := rfl

end Cert.Spec
-- ==== Proof.KPay1.lean ====
/-
  The batched region's stored values, each read at one entry of a block of 512 rows.

  A block's rows are flattened from 5 × 11 to 55 features (row-major), multiplied into the folded [55, 2] matrix and
  shifted by the folded bias row: `z = x M + a`.  Column 0 of `z` is stored as the mean; the exponential of column 1
  is stored beside it; and `(z₀ + z₁ · e) · C + d`, for the row's noise `e` and the folded rows `C`, `d` of 220, is
  stored as the row's 20 × 11 grid (cell `(h, w)` holding feature `11 h + w`).
-/
import proofs.«176251_g39084202394388_cont_8to1_b_76_3_alg».proof.Proof.Gen.KernelIdeal.Skeleton
import proofs.«176251_g39084202394388_cont_8to1_b_76_3_alg».proof.Proof.LibRowOps
import proofs.«176251_g39084202394388_cont_8to1_b_76_3_alg».proof.Proof.LibRowColOps
import proofs.«176251_g39084202394388_cont_8to1_b_76_3_alg».proof.Proof.NetOf

noncomputable section

namespace Cert.KernelIdeal.KPay1

open Cert.KernelIdeal Cert.KernelIdeal.Gen Idealize.ShloMosaic Idealize.ShloMosaic.ValueIdx Cert.Spec

theorem plain_512_55_2 : Cert.RowOps.IsPlain dot_S512x55_S55x2_S512x2_1_0_0_1_n_n := ⟨rfl, rfl, rfl, rfl, rfl, rfl⟩

/-- Feature `f` of row `p` of the flattened block is the block's entry at `(p, f / 11, f % 11)`. -/
theorem flat_at (v0 : Vec Ideal S512x5x11 .f32) (p : Fin 512) (f : Fin 55) :
    shapeCast S512x55 v0 shapeCasts_S512x5x11_S512x55 (ix2 p f) = v0 (ix3 p (featRow f) (featCol f)) :=
  shapeCast_apply v0 shapeCasts_S512x5x11_S512x55 (ix2 p f) (ix3 p (featRow f) (featCol f)) (by
    rewrite [Shape.rowMajor_val_three, Shape.rowMajor_val_two]
    have hp : p.val < 512 := p.isLt
    have hf : f.val < 55 := f.isLt
    show (p.val * 5 + f.val / 11) * 11 + f.val % 11 = p.val * 55 + f.val
    omega)

/-- `x M + a` at row `p`, column `c`. -/
theorem z_at (v0 : Vec Ideal S512x5x11 .f32) (v2 : Vec Ideal S55x2 .f32) (v5 : Vec Ideal S1x2 .f32) (p : Fin 512) (c : Fin 2) :
    k1_pay1 (F := Ideal) v0 v2 v5 (ix2 p c)
      = (∑ f : Fin 55, v0 (ix3 p (featRow f) (featCol f)) * v2 (ix2 f c)) + v5 (ix2 (0 : Fin 1) c) := by
  unfold k1_pay1
  simp only [shapeCast_self]
  rw [addf_apply, Cert.RowColOps.rowSpread_apply]
  refine congrArg (· + v5 (ix2 (0 : Fin 1) c)) ?_
  refine (Cert.RowOps.matmul_zero_apply plain_512_55_2 none _ v2 p c).trans ?_
  refine Finset.sum_congr rfl fun f _ => ?_
  rw [flat_at]

/-- The stored mean of row `p` is column 0 of `z`. -/
theorem mean_at (v0 : Vec Ideal S512x5x11 .f32) (v2 : Vec Ideal S55x2 .f32) (v5 : Vec Ideal S1x2 .f32) (p : Fin 512) :
    k1_pay2 (F := Ideal) v0 v2 v5 (ix2 p (0 : Fin 1)) = k1_pay1 (F := Ideal) v0 v2 v5 (ix2 p (0 : Fin 2)) := by
  unfold k1_pay2
  exact extractStridedSlice_apply ![0, 0] _ slices_S512x2_o0_0_S512x1 (ix2 p (0 : Fin 1)) (ix2 p (0 : Fin 2))
    (fun a => by match a with | ⟨0, _⟩ => show p.val = 0 + p.val; omega | ⟨1, _⟩ => rfl)

/-- The spread of row `p` is column 1 of `z`. -/
theorem spread_at (v0 : Vec Ideal S512x5x11 .f32) (v2 : Vec Ideal S55x2 .f32) (v5 : Vec Ideal S1x2 .f32) (p : Fin 512) :
    k1_pay3 (F := Ideal) v0 v2 v5 (ix2 p (0 : Fin 1)) = k1_pay1 (F := Ideal) v0 v2 v5 (ix2 p (1 : Fin 2)) := by
  unfold k1_pay3
  exact extractStridedSlice_apply ![0, 1] _ slices_S512x2_o0_1_S512x1 (ix2 p (0 : Fin 1)) (ix2 p (1 : Fin 2))
    (fun a => by match a with | ⟨0, _⟩ => show p.val = 0 + p.val; omega | ⟨1, _⟩ => rfl)

/-- The second stored value of row `p` is the exponential of the spread. -/
theorem expspread_at (v0 : Vec Ideal S512x5x11 .f32) (v2 : Vec Ideal S55x2 .f32) (v5 : Vec Ideal S1x2 .f32) (p : Fin 512) :
    k1_pay4 (F := Ideal) v0 v2 v5 (ix2 p (0 : Fin 1)) = Ideal.exp (k1_pay1 (F := Ideal) v0 v2 v5 (ix2 p (1 : Fin 2))) := by
  unfold k1_pay4
  show Ideal.exp (k1_pay3 (F := Ideal) v0 v2 v5 (ix2 p (0 : Fin 1))) = _
  rw [spread_at]

/-- Feature `11 h + w` of row `p` of a [512, 220] vector is cell `(h, w)` of the row's 20 × 11 grid. -/
theorem grid_at (v : FVec Ideal S512x220 .f32) (p : Fin 512) (h : Fin 20) (w : Fin 11) :
    shapeCast S512x20x11 v shapeCasts_S512x220_S512x20x11 (ix3 p h w) = v (ix2 p (cell h w)) :=
  shapeCast_apply v shapeCasts_S512x220_S512x20x11 (ix3 p h w) (ix2 p (cell h w)) (by
    rewrite [Shape.rowMajor_val_three, Shape.rowMajor_val_two]
    have hp : p.val < 512 := p.isLt
    have hh : h.val < 20 := h.isLt
    have hw : w.val < 11 := w.isLt
    show p.val * 220 + (h.val * 11 + w.val) = (p.val * 20 + h.val) * 11 + w.val
    omega)

/-- The produced grid of row `p` at cell `(h, w)`: `(z₀ + z₁ · e) · C + d` at feature `11 h + w`. -/
theorem prod_at (v0 : Vec Ideal S512x5x11 .f32) (v2 : Vec Ideal S55x2 .f32) (v5 : Vec Ideal S1x2 .f32) (v11 : Vec Ideal S512x1 .f32)
    (v17 : Vec Ideal S1x220 .f32) (v22 : Vec Ideal S1x220 .f32) (p : Fin 512) (h : Fin 20) (w : Fin 11) :
    k1_pay5 (F := Ideal) v0 v2 v5 v11 v17 v22 (ix3 p h w)
      = (k1_pay1 (F := Ideal) v0 v2 v5 (ix2 p (0 : Fin 2)) + k1_pay1 (F := Ideal) v0 v2 v5 (ix2 p (1 : Fin 2)) * v11 (ix2 p (0 : Fin 1)))
          * v17 (ix2 (0 : Fin 1) (cell h w)) + v22 (ix2 (0 : Fin 1) (cell h w)) := by
  unfold k1_pay5
  simp only [shapeCast_self]
  rw [grid_at, addf_apply, mulf_apply, Cert.RowColOps.rowSpread_apply, Cert.RowColOps.rowSpread_apply, Cert.RowOps.spread_apply,
    addf_apply, mulf_apply, mean_at, spread_at]

end Cert.KernelIdeal.KPay1

end
-- ==== Proof.KRegion1.lean ====
/-
  What the batched region leaves in its three result arrays.

  The region runs over 32 grid points; point `t` is handed rows `512 t … 512 t + 511` of the batch and of the noise
  column, the four folded arrays whole, and writes the same rows of the three result arrays.  Row `p` of point `t`'s
  blocks is row `512 t + p` of the arrays, so what a point writes is the matching block of one function of the arrays
  as the region finds them (a parameter `V`): with `z(r, c) = Σ_f x(r, f) · M(f, c) + a(c)`, the mean `z(r, 0)`, the
  exponential of `z(r, 1)`, and `(z(r, 0) + z(r, 1) · e(r)) · C(q) + d(q)` at cell `q = 11 h + w`.  The 32 blocks tile
  each array, so each array ends as that function.
-/
import proofs.«176251_g39084202394388_cont_8to1_b_76_3_alg».proof.Proof.Gen.KernelIdeal.Frame
import proofs.«176251_g39084202394388_cont_8to1_b_76_3_alg».proof.Proof.KPay1
import Idealize.ShloMosaic.Lib.Pipeline.Value

noncomputable section

namespace Cert.KernelIdeal.KRegion1

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s blocks is row `512 t + p` of the arrays. -/
def rowOf (t : Fin cfg1.N) (p : Fin 512) : Fin 16384 :=
  ⟨t.val * 512 + p.val, by
    have ht : t.val < 32 := lt_of_lt_of_eq t.isLt N_1
    have hp : p.val < 512 := p.isLt
    omega⟩

/-! ## The arrays as the region finds them, at their literal shapes -/

/-- The batch. -/
abbrev Xv (c : Dev nD) : S16384x5x11.Idx → EReal := V c main_arg0
/-- The noise column. -/
abbrev Ev (c : Dev nD) : S16384x1.Idx → EReal := V c main_arg13
/-- The folded encoder matrix. -/
abbrev Mv (c : Dev nD) : S55x2.Idx → EReal := V c main_v12_0
/-- The folded encoder bias row. -/
abbrev av (c : Dev nD) : S1x2.Idx → EReal := V c main_v12_1
/-- The folded decoder row. -/
abbrev Cv (c : Dev nD) : S1x220.Idx → EReal := V c main_v12_2
/-- The folded decoder bias row. -/
abbrev dv (c : Dev nD) : S1x220.Idx → EReal := V c main_v12_3

/-! ## The input windows -/

theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)

/-- The batch block of point `t` at `(p, a, b)` is the batch at `(512 t + p, a, b)`. -/
theorem x_at (c : Dev nD) (t : Fin cfg1.N) (p : Fin 512) (a : Fin 5) (b : Fin 11) :
    iblk1 V c 0 t (ix3 p a b) = V c main_arg0 (ix3 (rowOf t p) a b) := by
  show V c main_arg0 (((cfg1.win 0).blk t).view.emb (ix3 p a b)) = _
  refine congrArg (V c main_arg0) (funext fun ax => Fin.ext ?_)
  obtain ⟨e0, e1, e2⟩ := idx1_0 t
  match ax with
  | ⟨0, _⟩ => show win1_0.index t (0 : Fin 3) * 512 + 1 * p.val = t.val * 512 + p.val; omega
  | ⟨1, _⟩ => show win1_0.index t (1 : Fin 3) * 5 + 1 * a.val = a.val; omega
  | ⟨2, _⟩ => show win1_0.index t (2 : Fin 3) * 11 + 1 * b.val = b.val; omega

theorem idx1_1 : ∀ t : Fin cfg1.N, win1_1.index t (0 : Fin 2) = t.val ∧ win1_1.index t (1 : Fin 2) = 0 :=
  (by decide +kernel : ∀ t : Fin grid1.N, _)

/-- The noise block of point `t` at row `p` is the noise of row `512 t + p`. -/
theorem e_at (c : Dev nD) (t : Fin cfg1.N) (p : Fin 512) :
    iblk1 V c 1 t (ix2 p (0 : Fin 1)) = V c main_arg13 (ix2 (rowOf t p) (0 : Fin 1)) := by
  show V c main_arg13 (((cfg1.win 1).blk t).view.emb (ix2 p (0 : Fin 1))) = _
  refine congrArg (V c main_arg13) (funext fun ax => Fin.ext ?_)
  obtain ⟨e0, e1⟩ := idx1_1 t
  match ax with
  | ⟨0, _⟩ => show win1_1.index t (0 : Fin 2) * 512 + 1 * p.val = t.val * 512 + p.val; omega
  | ⟨1, _⟩ => show win1_1.index t (1 : Fin 2) * 1 + 1 * 0 = 0; omega

theorem idx1_2 : ∀ t : Fin cfg1.N, win1_2.index t (0 : Fin 2) = 0 ∧ win1_2.index t (1 : Fin 2) = 0 :=
  (by decide +kernel : ∀ t : Fin grid1.N, _)

/-- Input window 2 is the same whole array at every point. -/
theorem iblk1_2 (c : Dev nD) (t : Fin cfg1.N) : iblk1 V c 2 t = V c main_v12_0 := by
  funext y
  show V c main_v12_0 (((cfg1.win 2).blk t).view.emb y) = V c main_v12_0 y
  refine congrArg (V c main_v12_0) (funext fun a => Fin.ext ?_)
  obtain ⟨e0, e1⟩ := idx1_2 t
  match a with
  | ⟨0, _⟩ => show win1_2.index t (0 : Fin 2) * 55 + 1 * (y 0).val = (y 0).val; omega
  | ⟨1, _⟩ => show win1_2.index t (1 : Fin 2) * 2 + 1 * (y 1).val = (y 1).val; omega

theorem idx1_3 : ∀ t : Fin cfg1.N, win1_3.index t (0 : Fin 2) = 0 ∧ win1_3.index t (1 : Fin 2) = 0 :=
  (by decide +kernel : ∀ t : Fin grid1.N, _)

/-- Input window 3 is the same whole array at every point. -/
theorem iblk1_3 (c : Dev nD) (t : Fin cfg1.N) : iblk1 V c 3 t = V c main_v12_1 := by
  funext y
  show V c main_v12_1 (((cfg1.win 3).blk t).view.emb y) = V c main_v12_1 y
  refine congrArg (V c main_v12_1) (funext fun a => Fin.ext ?_)
  obtain ⟨e0, e1⟩ := idx1_3 t
  match a with
  | ⟨0, _⟩ => show win1_3.index t (0 : Fin 2) * 1 + 1 * (y 0).val = (y 0).val; omega
  | ⟨1, _⟩ => show win1_3.index t (1 : Fin 2) * 2 + 1 * (y 1).val = (y 1).val; omega

theorem idx1_4 : ∀ t : Fin cfg1.N, win1_4.index t (0 : Fin 2) = 0 ∧ win1_4.index t (1 : Fin 2) = 0 :=
  (by decide +kernel : ∀ t : Fin grid1.N, _)

/-- Input window 4 is the same whole array at every point. -/
theorem iblk1_4 (c : Dev nD) (t : Fin cfg1.N) : iblk1 V c 4 t = V c main_v12_2 := by
  funext y
  show V c main_v12_2 (((cfg1.win 4).blk t).view.emb y) = V c main_v12_2 y
  refine congrArg (V c main_v12_2) (funext fun a => Fin.ext ?_)
  obtain ⟨e0, e1⟩ := idx1_4 t
  match a with
  | ⟨0, _⟩ => show win1_4.index t (0 : Fin 2) * 1 + 1 * (y 0).val = (y 0).val; omega
  | ⟨1, _⟩ => show win1_4.index t (1 : Fin 2) * 220 + 1 * (y 1).val = (y 1).val; omega

theorem idx1_5 : ∀ t : Fin cfg1.N, win1_5.index t (0 : Fin 2) = 0 ∧ win1_5.index t (1 : Fin 2) = 0 :=
  (by decide +kernel : ∀ t : Fin grid1.N, _)

/-- Input window 5 is the same whole array at every point. -/
theorem iblk1_5 (c : Dev nD) (t : Fin cfg1.N) : iblk1 V c 5 t = V c main_v12_3 := by
  funext y
  show V c main_v12_3 (((cfg1.win 5).blk t).view.emb y) = V c main_v12_3 y
  refine congrArg (V c main_v12_3) (funext fun a => Fin.ext ?_)
  obtain ⟨e0, e1⟩ := idx1_5 t
  match a with
  | ⟨0, _⟩ => show win1_5.index t (0 : Fin 2) * 1 + 1 * (y 0).val = (y 0).val; omega
  | ⟨1, _⟩ => show win1_5.index t (1 : Fin 2) * 220 + 1 * (y 1).val = (y 1).val; omega

/-! ## The three results as functions of the arrays the region finds -/

/-- `x M + a` at row `r`, column `cc`. -/
def zrow (c : Dev nD) (r : Fin 16384) (cc : Fin 2) : EReal :=
  (∑ f : Fin 55, Xv V c (ix3 r (featRow f) (featCol f)) * Mv V c (ix2 f cc)) + av V c (ix2 (0 : Fin 1) cc)

/-- The mean column. -/
def Gmean (c : Dev nD) : S16384x1.Idx → EReal := fun i => zrow V c (i 0) 0
/-- The exponential of the spread column. -/
def Gexp (c : Dev nD) : S16384x1.Idx → EReal := fun i => Ideal.exp (zrow V c (i 0) 1)
/-- The produced grid. -/
def Gprod (c : Dev nD) : S16384x20x11.Idx → EReal := fun i =>
  (zrow V c (i 0) 0 + zrow V c (i 0) 1 * Ev V c (ix2 (i 0) (0 : Fin 1))) * Cv V c (ix2 (0 : Fin 1) (cell (i 1) (i 2)))
    + dv V c (ix2 (0 : Fin 1) (cell (i 1) (i 2)))

/-- `z` of point `t`'s blocks at row `p` is `z` of the arrays at row `512 t + p`. -/
theorem zblk (c : Dev nD) (t : Fin cfg1.N) (p : Fin 512) (cc : Fin 2) :
    k1_pay1 (F := Ideal) (iblk1 V c 0 t) (iblk1 V c 2 t) (iblk1 V c 3 t) (ix2 p cc) = zrow V c (rowOf t p) cc := by
  refine (KPay1.z_at (iblk1 V c 0 t) (iblk1 V c 2 t) (iblk1 V c 3 t) p cc).trans ?_
  unfold zrow
  rw [iblk1_2, iblk1_3]
  refine congrArg (· + av V c (ix2 (0 : Fin 1) cc)) (Finset.sum_congr rfl fun f _ => ?_)
  rw [x_at]

/-! ## Output window 6: the mean -/

theorem idx1_6 : ∀ t : Fin cfg1.N, win1_6.index t (0 : Fin 2) = t.val ∧ win1_6.index t (1 : Fin 2) = 0 :=
  (by decide +kernel : ∀ t : Fin grid1.N, _)

theorem emb1_6 (t : Fin cfg1.N) (p : Fin 512) :
    ((cfg1.win 6).blk t).view.emb (ix2 p (0 : Fin 1)) = ix2 (rowOf t p) (0 : Fin 1) := funext fun ax => Fin.ext (by
  obtain ⟨e0, e1⟩ := idx1_6 t
  match ax with
  | ⟨0, _⟩ => show win1_6.index t (0 : Fin 2) * 512 + 1 * p.val = t.val * 512 + p.val; omega
  | ⟨1, _⟩ => show win1_6.index t (1 : Fin 2) * 1 + 1 * 0 = 0; omega)

/-- What point `t` writes back to output window 6 is block `t` of the mean column. -/
theorem flushed1_6_eq (c : Dev nD) (t : Fin cfg1.N) :
    (dat1 V c).flushed 6 t = ((cfg1.win 6).blk t).view.read (Elt Ideal) (Gmean V c) := by
  show (cfg1.win 6).cut (grid1.coords t) ((dat1 V c).after 6 t) = _
  rw [after1_6]
  unfold out1_6
  rw [View.canon_unit_zero hz2]
  simp only [View.ld_unit_zero (S := S512x5x11) hz3, View.ld_unit_zero (S := S55x2) hz2, View.ld_unit_zero (S := S1x2) hz2]
  refine funext fun (y : S512x1.Idx) => ?_
  obtain ⟨p, u, rfl⟩ : ∃ (p : Fin 512) (u : Fin 1), y = ix2 p u := ⟨y 0, y 1, eq_ix2 y⟩
  obtain rfl : u = 0 := Subsingleton.elim _ _
  show k1_pay2 (F := Ideal) (iblk1 V c 0 t) (iblk1 V c 2 t) (iblk1 V c 3 t) (ix2 p (0 : Fin 1))
    = Gmean V c (((cfg1.win 6).blk t).view.emb (ix2 p (0 : Fin 1)))
  rw [emb1_6]
  refine (KPay1.mean_at (iblk1 V c 0 t) (iblk1 V c 2 t) (iblk1 V c 3 t) p).trans ?_
  rw [zblk]
  rfl

theorem mem_blk1_6 (t : Fin cfg1.N) (i : S16384x1.Idx) :
    i ∈ ((cfg1.win 6).blk t).view.set ↔ ∀ a : Fin 2, win1_6.index t a * S512x1.size a ≤ (i a).val ∧ (i a).val < win1_6.index t a * S512x1.size a + S512x1.size a := by
  show i ∈ ((View.whole main_v13_0).slice (win1_6.rect t)).set ↔ _
  rw [View.set_slice_whole, Rect.mem_set_unit]
  exact Iff.rfl

/-- Row `r` lies in the block of point `r / 512`: the blocks cover the array. -/
theorem cover1_6_all (i : S16384x1.Idx) : ∃ t : Fin cfg1.N, (cfg1.win 6).flush t = true ∧ i ∈ ((cfg1.win 6).blk t).view.set := by
  have h0 : (i 0).val < 16384 := (i 0).isLt
  have h1 : (i 1).val < 1 := (i 1).isLt
  have hN : (i 0).val / 512 < cfg1.N := by show _ < grid1.N; rw [N_1]; omega
  refine ⟨⟨(i 0).val / 512, hN⟩, flush1_6 _, ?_⟩
  rw [mem_blk1_6]
  obtain ⟨e0, e1⟩ := idx1_6 ⟨(i 0).val / 512, hN⟩
  have ht : (⟨(i 0).val / 512, hN⟩ : Fin cfg1.N).val = (i 0).val / 512 := rfl
  intro a
  match a with
  | ⟨0, _⟩ => show win1_6.index ⟨(i 0).val / 512, hN⟩ (0 : Fin 2) * 512 ≤ (i 0).val ∧ (i 0).val < win1_6.index ⟨(i 0).val / 512, hN⟩ (0 : Fin 2) * 512 + 512; omega
  | ⟨1, _⟩ => show win1_6.index ⟨(i 0).val / 512, hN⟩ (1 : Fin 2) * 1 ≤ (i 1).val ∧ (i 1).val < win1_6.index ⟨(i 0).val / 512, hN⟩ (1 : Fin 2) * 1 + 1; omega

/-- After the region, output window 6's array is the mean column. -/
theorem final1_6 (c : Dev nD) : (dat1 V c).arrAt 6 cfg1.N = Gmean V c :=
  (dat1 V c).arrAt_eq_of_cover 6 _ (fun t _ => flushed1_6_eq V c t) (cover1_6_all)

/-! ## Output window 7: the exponential of the spread -/

theorem idx1_7 : ∀ t : Fin cfg1.N, win1_7.index t (0 : Fin 2) = t.val ∧ win1_7.index t (1 : Fin 2) = 0 :=
  (by decide +kernel : ∀ t : Fin grid1.N, _)

theorem emb1_7 (t : Fin cfg1.N) (p : Fin 512) :
    ((cfg1.win 7).blk t).view.emb (ix2 p (0 : Fin 1)) = ix2 (rowOf t p) (0 : Fin 1) := funext fun ax => Fin.ext (by
  obtain ⟨e0, e1⟩ := idx1_7 t
  match ax with
  | ⟨0, _⟩ => show win1_7.index t (0 : Fin 2) * 512 + 1 * p.val = t.val * 512 + p.val; omega
  | ⟨1, _⟩ => show win1_7.index t (1 : Fin 2) * 1 + 1 * 0 = 0; omega)

/-- What point `t` writes back to output window 7 is block `t` of the exponential of the spread column. -/
theorem flushed1_7_eq (c : Dev nD) (t : Fin cfg1.N) :
    (dat1 V c).flushed 7 t = ((cfg1.win 7).blk t).view.read (Elt Ideal) (Gexp V c) := by
  show (cfg1.win 7).cut (grid1.coords t) ((dat1 V c).after 7 t) = _
  rw [after1_7]
  unfold out1_7
  rw [View.canon_unit_zero hz2]
  simp only [View.ld_unit_zero (S := S512x5x11) hz3, View.ld_unit_zero (S := S55x2) hz2, View.ld_unit_zero (S := S1x2) hz2]
  refine funext fun (y : S512x1.Idx) => ?_
  obtain ⟨p, u, rfl⟩ : ∃ (p : Fin 512) (u : Fin 1), y = ix2 p u := ⟨y 0, y 1, eq_ix2 y⟩
  obtain rfl : u = 0 := Subsingleton.elim _ _
  show k1_pay4 (F := Ideal) (iblk1 V c 0 t) (iblk1 V c 2 t) (iblk1 V c 3 t) (ix2 p (0 : Fin 1))
    = Gexp V c (((cfg1.win 7).blk t).view.emb (ix2 p (0 : Fin 1)))
  rw [emb1_7]
  refine (KPay1.expspread_at (iblk1 V c 0 t) (iblk1 V c 2 t) (iblk1 V c 3 t) p).trans ?_
  rw [zblk]
  rfl

theorem mem_blk1_7 (t : Fin cfg1.N) (i : S16384x1.Idx) :
    i ∈ ((cfg1.win 7).blk t).view.set ↔ ∀ a : Fin 2, win1_7.index t a * S512x1.size a ≤ (i a).val ∧ (i a).val < win1_7.index t a * S512x1.size a + S512x1.size a := by
  show i ∈ ((View.whole main_v13_1).slice (win1_7.rect t)).set ↔ _
  rw [View.set_slice_whole, Rect.mem_set_unit]
  exact Iff.rfl

/-- Row `r` lies in the block of point `r / 512`: the blocks cover the array. -/
theorem cover1_7_all (i : S16384x1.Idx) : ∃ t : Fin cfg1.N, (cfg1.win 7).flush t = true ∧ i ∈ ((cfg1.win 7).blk t).view.set := by
  have h0 : (i 0).val < 16384 := (i 0).isLt
  have h1 : (i 1).val < 1 := (i 1).isLt
  have hN : (i 0).val / 512 < cfg1.N := by show _ < grid1.N; rw [N_1]; omega
  refine ⟨⟨(i 0).val / 512, hN⟩, flush1_7 _, ?_⟩
  rw [mem_blk1_7]
  obtain ⟨e0, e1⟩ := idx1_7 ⟨(i 0).val / 512, hN⟩
  have ht : (⟨(i 0).val / 512, hN⟩ : Fin cfg1.N).val = (i 0).val / 512 := rfl
  intro a
  match a with
  | ⟨0, _⟩ => show win1_7.index ⟨(i 0).val / 512, hN⟩ (0 : Fin 2) * 512 ≤ (i 0).val ∧ (i 0).val < win1_7.index ⟨(i 0).val / 512, hN⟩ (0 : Fin 2) * 512 + 512; omega
  | ⟨1, _⟩ => show win1_7.index ⟨(i 0).val / 512, hN⟩ (1 : Fin 2) * 1 ≤ (i 1).val ∧ (i 1).val < win1_7.index ⟨(i 0).val / 512, hN⟩ (1 : Fin 2) * 1 + 1; omega

/-- After the region, output window 7's array is the exponential of the spread column. -/
theorem final1_7 (c : Dev nD) : (dat1 V c).arrAt 7 cfg1.N = Gexp V c :=
  (dat1 V c).arrAt_eq_of_cover 7 _ (fun t _ => flushed1_7_eq V c t) (cover1_7_all)

/-! ## Output window 8: the produced grid -/

theorem idx1_8 : ∀ t : Fin cfg1.N, win1_8.index t (0 : Fin 3) = t.val ∧ win1_8.index t (1 : Fin 3) = 0 ∧ win1_8.index t (2 : Fin 3) = 0 :=
  (by decide +kernel : ∀ t : Fin grid1.N, _)

theorem emb1_8 (t : Fin cfg1.N) (p : Fin 512) (h : Fin 20) (w : Fin 11) :
    ((cfg1.win 8).blk t).view.emb (ix3 p h w) = ix3 (rowOf t p) h w := funext fun ax => Fin.ext (by
  obtain ⟨e0, e1, e2⟩ := idx1_8 t
  match ax with
  | ⟨0, _⟩ => show win1_8.index t (0 : Fin 3) * 512 + 1 * p.val = t.val * 512 + p.val; omega
  | ⟨1, _⟩ => show win1_8.index t (1 : Fin 3) * 20 + 1 * h.val = h.val; omega
  | ⟨2, _⟩ => show win1_8.index t (2 : Fin 3) * 11 + 1 * w.val = w.val; omega)

/-- What point `t` writes back to output window 8 is block `t` of the produced grid. -/
theorem flushed1_8_eq (c : Dev nD) (t : Fin cfg1.N) :
    (dat1 V c).flushed 8 t = ((cfg1.win 8).blk t).view.read (Elt Ideal) (Gprod V c) := by
  show (cfg1.win 8).cut (grid1.coords t) ((dat1 V c).after 8 t) = _
  rw [after1_8]
  unfold out1_8
  rw [View.canon_unit_zero hz3]
  simp only [View.ld_unit_zero (S := S512x5x11) hz3, View.ld_unit_zero (S := S55x2) hz2, View.ld_unit_zero (S := S1x2) hz2,
    View.ld_unit_zero (S := S512x1) hz2, View.ld_unit_zero (S := S1x220) hz2]
  refine funext fun (y : S512x20x11.Idx) => ?_
  obtain ⟨p, h, w, rfl⟩ : ∃ (p : Fin 512) (h : Fin 20) (w : Fin 11), y = ix3 p h w := ⟨y 0, y 1, y 2, eq_ix3 y⟩
  show k1_pay5 (F := Ideal) (iblk1 V c 0 t) (iblk1 V c 2 t) (iblk1 V c 3 t) (iblk1 V c 1 t) (iblk1 V c 4 t) (iblk1 V c 5 t) (ix3 p h w)
    = Gprod V c (((cfg1.win 8).blk t).view.emb (ix3 p h w))
  rw [emb1_8]
  refine (KPay1.prod_at (iblk1 V c 0 t) (iblk1 V c 2 t) (iblk1 V c 3 t) (iblk1 V c 1 t) (iblk1 V c 4 t) (iblk1 V c 5 t) p h w).trans ?_
  rw [zblk, zblk, e_at, iblk1_4, iblk1_5]
  rfl

theorem mem_blk1_8 (t : Fin cfg1.N) (i : S16384x20x11.Idx) :
    i ∈ ((cfg1.win 8).blk t).view.set ↔ ∀ a : Fin 3, win1_8.index t a * S512x20x11.size a ≤ (i a).val ∧ (i a).val < win1_8.index t a * S512x20x11.size a + S512x20x11.size a := by
  show i ∈ ((View.whole main_v13_2).slice (win1_8.rect t)).set ↔ _
  rw [View.set_slice_whole, Rect.mem_set_unit]
  exact Iff.rfl

/-- Row `r` lies in the block of point `r / 512`: the blocks cover the array. -/
theorem cover1_8_all (i : S16384x20x11.Idx) : ∃ t : Fin cfg1.N, (cfg1.win 8).flush t = true ∧ i ∈ ((cfg1.win 8).blk t).view.set := by
  have h0 : (i 0).val < 16384 := (i 0).isLt
  have h1 : (i 1).val < 20 := (i 1).isLt
  have h2 : (i 2).val < 11 := (i 2).isLt
  have hN : (i 0).val / 512 < cfg1.N := by show _ < grid1.N; rw [N_1]; omega
  refine ⟨⟨(i 0).val / 512, hN⟩, flush1_8 _, ?_⟩
  rw [mem_blk1_8]
  obtain ⟨e0, e1, e2⟩ := idx1_8 ⟨(i 0).val / 512, hN⟩
  have ht : (⟨(i 0).val / 512, hN⟩ : Fin cfg1.N).val = (i 0).val / 512 := rfl
  intro a
  match a with
  | ⟨0, _⟩ => show win1_8.index ⟨(i 0).val / 512, hN⟩ (0 : Fin 3) * 512 ≤ (i 0).val ∧ (i 0).val < win1_8.index ⟨(i 0).val / 512, hN⟩ (0 : Fin 3) * 512 + 512; omega
  | ⟨1, _⟩ => show win1_8.index ⟨(i 0).val / 512, hN⟩ (1 : Fin 3) * 20 ≤ (i 1).val ∧ (i 1).val < win1_8.index ⟨(i 0).val / 512, hN⟩ (1 : Fin 3) * 20 + 20; omega
  | ⟨2, _⟩ => show win1_8.index ⟨(i 0).val / 512, hN⟩ (2 : Fin 3) * 11 ≤ (i 2).val ∧ (i 2).val < win1_8.index ⟨(i 0).val / 512, hN⟩ (2 : Fin 3) * 11 + 11; omega

/-- After the region, output window 8's array is the produced grid. -/
theorem final1_8 (c : Dev nD) : (dat1 V c).arrAt 8 cfg1.N = Gprod V c :=
  (dat1 V c).arrAt_eq_of_cover 8 _ (fun t _ => flushed1_8_eq V c t) (cover1_8_all)

end Cert.KernelIdeal.KRegion1

end
-- ==== Proof.KValue.lean ====
/-
  The idealized kernel's three results, as the folded network of the launch memory.

  Region by region: the host stretch hands the folding region the transposed weights and one-row biases of the launch
  memory, so its four result arrays hold, entry by entry, the folded matrix `M`, bias row `a`, row `C` and bias row
  `d` of the network read off the launch memory.  The batched region finds those four arrays together with the batch
  and the noise as launched, so its three result arrays hold the folded network's mean `zf(r, 0)`, the exponential of
  its spread `zf(r, 1)`, and its produced features `pf(r, 11 h + w)`.
-/
import proofs.«176251_g39084202394388_cont_8to1_b_76_3_alg».proof.Proof.Gen.KernelIdeal.Frame
import proofs.«176251_g39084202394388_cont_8to1_b_76_3_alg».proof.Proof.KHost
import proofs.«176251_g39084202394388_cont_8to1_b_76_3_alg».proof.Proof.KPay0
import proofs.«176251_g39084202394388_cont_8to1_b_76_3_alg».proof.Proof.KRegion0
import proofs.«176251_g39084202394388_cont_8to1_b_76_3_alg».proof.Proof.KRegion1
import proofs.«176251_g39084202394388_cont_8to1_b_76_3_alg».proof.Proof.NetOf

noncomputable section

namespace Cert.KernelIdeal.KValue

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (ρ : Dev nD → PrngReg)

/-- The network read off core `c`'s argument arrays at launch. -/
abbrev net (c : Dev nD) : Net EReal :=
  netOf (α := EReal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## What the batched region finds -/

/-- The folding region's first result is `M`. -/
theorem V2_M (c : Dev nD) (f : Fin 55) (cc : Fin 2) :
    KRegion1.Mv (V2 m ρ) c (ix2 f cc) = (net m c).M f cc := by
  have h : (V2 m ρ c main_v12_0 : S55x2.Idx → EReal) = k0_pay3 (F := Ideal) (V1 m ρ c main_v0) (V1 m ρ c main_v2) (V1 m ρ c main_v4) :=
    (W2_arr m ρ c 12).trans (KRegion0.final0_12 (V1 m ρ) c)
  refine (congrFun h (ix2 f cc)).trans ?_
  refine (KPay0.M_at (V1 m ρ c main_v0) (V1 m ρ c main_v2) (V1 m ρ c main_v4) f cc).trans ?_
  show _ = ∑ k : Fin 64, (∑ j : Fin 64, (net m c).W1 j f * (net m c).W2 k j) * (net m c).W3 cc k
  exact Finset.sum_congr rfl fun k _ => congrArg₂ (· * ·)
    (Finset.sum_congr rfl fun j _ => congrArg₂ (· * ·) (KHost.v0_at m ρ c f j) (KHost.v2_at m ρ c j k))
    (KHost.v4_at m ρ c k cc)

/-- The folding region's second result is `a`. -/
theorem V2_a (c : Dev nD) (cc : Fin 2) :
    KRegion1.av (V2 m ρ) c (ix2 (0 : Fin 1) cc) = (net m c).a cc := by
  have h : (V2 m ρ c main_v12_1 : S1x2.Idx → EReal)
      = k0_pay4 (F := Ideal) (V1 m ρ c main_v1) (V1 m ρ c main_v2) (V1 m ρ c main_v3) (V1 m ρ c main_v4) (V1 m ρ c main_v5) :=
    (W2_arr m ρ c 13).trans (KRegion0.final0_13 (V1 m ρ) c)
  refine (congrFun h (ix2 (0 : Fin 1) cc)).trans ?_
  refine (KPay0.a_at (V1 m ρ c main_v1) (V1 m ρ c main_v2) (V1 m ρ c main_v3) (V1 m ρ c main_v4) (V1 m ρ c main_v5) cc).trans ?_
  show _ = (∑ k : Fin 64, ((∑ j : Fin 64, (net m c).b1 j * (net m c).W2 k j) + (net m c).b2 k) * (net m c).W3 cc k) + (net m c).b3 cc
  exact congrArg₂ (· + ·)
    (Finset.sum_congr rfl fun k _ => congrArg₂ (· * ·)
      (congrArg₂ (· + ·) (Finset.sum_congr rfl fun j _ => congrArg₂ (· * ·) (KHost.v1_at m ρ c j) (KHost.v2_at m ρ c j k))
        (KHost.v3_at m ρ c k))
      (KHost.v4_at m ρ c k cc))
    (KHost.v5_at m ρ c cc)

/-- The folding region's third result is `C`. -/
theorem V2_C (c : Dev nD) (q : Fin 220) :
    KRegion1.Cv (V2 m ρ) c (ix2 (0 : Fin 1) q) = (net m c).C q := by
  have h : (V2 m ρ c main_v12_2 : S1x220.Idx → EReal)
      = k0_pay1 (F := Ideal) (k0_pay5 (F := Ideal) (V1 m ρ c main_v6) (V1 m ρ c main_v8)) (V1 m ρ c main_v10) :=
    (W2_arr m ρ c 14).trans (KRegion0.final0_14 (V1 m ρ) c)
  refine (congrFun h (ix2 (0 : Fin 1) q)).trans ?_
  refine (KPay0.C_at (k0_pay5 (F := Ideal) (V1 m ρ c main_v6) (V1 m ρ c main_v8)) (V1 m ρ c main_v10) q).trans ?_
  show _ = ∑ k : Fin 64, (∑ j : Fin 128, (net m c).R1 j * (net m c).R2 k j) * (net m c).R3 q k
  exact Finset.sum_congr rfl fun k _ => congrArg₂ (· * ·)
    ((KPay0.crow_at (V1 m ρ c main_v6) (V1 m ρ c main_v8) k).trans
      (Finset.sum_congr rfl fun j _ => congrArg₂ (· * ·) (KHost.v6_at m ρ c j) (KHost.v8_at m ρ c j k)))
    (KHost.v10_at m ρ c k q)

/-- The folding region's fourth result is `d`. -/
theorem V2_d (c : Dev nD) (q : Fin 220) :
    KRegion1.dv (V2 m ρ) c (ix2 (0 : Fin 1) q) = (net m c).d q := by
  have h : (V2 m ρ c main_v12_3 : S1x220.Idx → EReal)
      = k0_pay2 (F := Ideal) (V1 m ρ c main_v7) (V1 m ρ c main_v8) (V1 m ρ c main_v9) (V1 m ρ c main_v10) (V1 m ρ c main_v11) :=
    (W2_arr m ρ c 15).trans (KRegion0.final0_15 (V1 m ρ) c)
  refine (congrFun h (ix2 (0 : Fin 1) q)).trans ?_
  refine (KPay0.d_at (V1 m ρ c main_v7) (V1 m ρ c main_v8) (V1 m ρ c main_v9) (V1 m ρ c main_v10) (V1 m ρ c main_v11) q).trans ?_
  show _ = (∑ k : Fin 64, ((∑ j : Fin 128, (net m c).c1 j * (net m c).R2 k j) + (net m c).c2 k) * (net m c).R3 q k) + (net m c).c3 q
  exact congrArg₂ (· + ·)
    (Finset.sum_congr rfl fun k _ => congrArg₂ (· * ·)
      (congrArg₂ (· + ·) (Finset.sum_congr rfl fun j _ => congrArg₂ (· * ·) (KHost.v7_at m ρ c j) (KHost.v8_at m ρ c j k))
        (KHost.v9_at m ρ c k))
      (KHost.v10_at m ρ c k q))
    (KHost.v11_at m ρ c q)

/-- The batched region finds the batch as launched. -/
theorem V2_x (c : Dev nD) : KRegion1.Xv (V2 m ρ) c = m ((c : Thread nD τ).loc main_arg0) :=
  ((W3_arr m ρ c 0).trans (((dat1 (V2 m ρ) c).arrAt_in 0 rfl _).trans (A_eq1 (V2 m ρ) c 0))).symm.trans (W3_main_arg0 m ρ c)

/-- The batched region finds the noise as launched. -/
theorem V2_e (c : Dev nD) : KRegion1.Ev (V2 m ρ) c = m ((c : Thread nD τ).loc main_arg13) :=
  ((W3_arr m ρ c 1).trans (((dat1 (V2 m ρ) c).arrAt_in 1 rfl _).trans (A_eq1 (V2 m ρ) c 1))).symm.trans (W3_main_arg13 m ρ c)

/-- `x M + a` off the arrays the batched region finds is the folded network's `zf`. -/
theorem zrow_eq (c : Dev nD) (r : Fin 16384) (cc : Fin 2) : KRegion1.zrow (V2 m ρ) c r cc = (net m c).zf r cc := by
  show (∑ f : Fin 55, KRegion1.Xv (V2 m ρ) c (ix3 r (featRow f) (featCol f)) * KRegion1.Mv (V2 m ρ) c (ix2 f cc))
      + KRegion1.av (V2 m ρ) c (ix2 (0 : Fin 1) cc) = (∑ f : Fin 55, (net m c).x r f * (net m c).M f cc) + (net m c).a cc
  exact congrArg₂ (· + ·)
    (Finset.sum_congr rfl fun f _ => congrArg₂ (· * ·) (congrFun (V2_x m ρ c) (ix3 r (featRow f) (featCol f))) (V2_M m ρ c f cc))
    (V2_a m ρ c cc)

/-! ## The three results -/

/-- The first result: the folded network's mean. -/
theorem out_mean (c : Dev nD) (r : Fin 16384) :
    (W3 m ρ c (Proc.devRef .tc main_v13_0) : S16384x1.Idx → EReal) (ix2 r (0 : Fin 1)) = (net m c).zf r 0 := by
  have h : (W3 m ρ c (Proc.devRef .tc main_v13_0) : S16384x1.Idx → EReal) = KRegion1.Gmean (V2 m ρ) c :=
    (W3_arr m ρ c 6).trans (KRegion1.final1_6 (V2 m ρ) c)
  refine (congrFun h (ix2 r (0 : Fin 1))).trans ?_
  exact zrow_eq m ρ c r 0

/-- The second result: the exponential of the folded network's spread. -/
theorem out_exp (c : Dev nD) (r : Fin 16384) :
    (W3 m ρ c (Proc.devRef .tc main_v13_1) : S16384x1.Idx → EReal) (ix2 r (0 : Fin 1)) = Ideal.exp ((net m c).zf r 1) := by
  have h : (W3 m ρ c (Proc.devRef .tc main_v13_1) : S16384x1.Idx → EReal) = KRegion1.Gexp (V2 m ρ) c :=
    (W3_arr m ρ c 7).trans (KRegion1.final1_7 (V2 m ρ) c)
  refine (congrFun h (ix2 r (0 : Fin 1))).trans ?_
  exact congrArg Ideal.exp (zrow_eq m ρ c r 1)

/-- The third result: the folded network's produced features, cell `(h, w)` holding feature `11 h + w`. -/
theorem out_prod (c : Dev nD) (r : Fin 16384) (h : Fin 20) (w : Fin 11) :
    (W3 m ρ c (Proc.devRef .tc main_v13_2) : S16384x20x11.Idx → EReal) (ix3 r h w) = (net m c).pf r (cell h w) := by
  have e : (W3 m ρ c (Proc.devRef .tc main_v13_2) : S16384x20x11.Idx → EReal) = KRegion1.Gprod (V2 m ρ) c :=
    (W3_arr m ρ c 8).trans (KRegion1.final1_8 (V2 m ρ) c)
  refine (congrFun e (ix3 r h w)).trans ?_
  show (KRegion1.zrow (V2 m ρ) c r 0 + KRegion1.zrow (V2 m ρ) c r 1 * KRegion1.Ev (V2 m ρ) c (ix2 r (0 : Fin 1)))
      * KRegion1.Cv (V2 m ρ) c (ix2 (0 : Fin 1) (cell h w)) + KRegion1.dv (V2 m ρ) c (ix2 (0 : Fin 1) (cell h w)) = _
  show _ = ((net m c).zf r 0 + (net m c).zf r 1 * (net m c).e r) * (net m c).C (cell h w) + (net m c).d (cell h w)
  exact congrArg₂ (· + ·)
    (congrArg₂ (· * ·)
      (congrArg₂ (· + ·) (zrow_eq m ρ c r 0) (congrArg₂ (· * ·) (zrow_eq m ρ c r 1) (congrFun (V2_e m ρ c) (ix2 r (0 : Fin 1)))))
      (V2_C m ρ c (cell h w)))
    (V2_d m ρ c (cell h w))

end Cert.KernelIdeal.KValue

end
-- ==== Proof.RefSide.lean ====
/-
  The reference program read at an index.

  The reference is three affine layers (55 → 64 → 64 → 2), the sample `mean + spread · e`, and three more affine layers
  (1 → 128 → 64 → 220).  Between layers it applies `select(h ≥ 0, h, 1·h)`, which is the identity on the extended reals:
  `1·h = h`, and a select between two equal branches is that branch whatever the condition.

  Each layer is a contraction `∑ k, l (r, k) · w (k, j)` against a transposed weight plus a broadcast bias row; read at
  `(r, j)` it is the layered function of the network of the fourteen arrays (`h1`, `h2`, `z`, `s`, `r1`, `r2`, `p`).
  One lemma per layer, each resting on the previous layer's.
-/
import proofs.«176251_g39084202394388_cont_8to1_b_76_3_alg».proof.Proof.RefReadP
import proofs.«176251_g39084202394388_cont_8to1_b_76_3_alg».proof.Proof.NetOf

noncomputable section

open scoped BigOperators

namespace Cert.RefSide

open Cert.ReferenceIdeal Cert.ReferenceIdeal.Gen Cert.ReferenceIdeal.ReadP Cert.Spec
open Idealize.ShloMosaic Idealize.ShloMosaic.ValueIdx

variable (X : (⟨S16384x5x11, .f32⟩ : BufTy).Contents (Elt Ideal))
  (A1 : (⟨S64x55, .f32⟩ : BufTy).Contents (Elt Ideal)) (B1 : (⟨S64, .f32⟩ : BufTy).Contents (Elt Ideal))
  (A2 : (⟨S64x64, .f32⟩ : BufTy).Contents (Elt Ideal)) (B2 : (⟨S64, .f32⟩ : BufTy).Contents (Elt Ideal))
  (A3 : (⟨S2x64, .f32⟩ : BufTy).Contents (Elt Ideal)) (B3 : (⟨S2, .f32⟩ : BufTy).Contents (Elt Ideal))
  (Q1 : (⟨S128x1, .f32⟩ : BufTy).Contents (Elt Ideal)) (D1 : (⟨S128, .f32⟩ : BufTy).Contents (Elt Ideal))
  (Q2 : (⟨S64x128, .f32⟩ : BufTy).Contents (Elt Ideal)) (D2 : (⟨S64, .f32⟩ : BufTy).Contents (Elt Ideal))
  (Q3 : (⟨S220x64, .f32⟩ : BufTy).Contents (Elt Ideal)) (D3 : (⟨S220, .f32⟩ : BufTy).Contents (Elt Ideal))
  (E : (⟨S16384x1, .f32⟩ : BufTy).Contents (Elt Ideal))

/-- The network read off the fourteen arrays. -/
local notation "NN" => Cert.Spec.netOf (α := EReal) X A1 B1 A2 B2 A3 B3 Q1 D1 Q2 D2 Q3 D3 E

/-! ## Words and indices -/

/-- The pattern of `1.0` denotes the extended real `1`. -/
theorem ofBits_one : Ideal.ofBits .f32 0x3F800000#32 = 1 := by
  simp [Ideal.ofBits, Ideal.ieee, -EReal.coe_mul]; norm_num

/-- A select between two equal branches is that branch, whatever the condition. -/
theorem select_same {α : Type} (c : BitVec 1) (a : α) : Scalar.select c a a = a := by
  by_cases h : c = 1#1
  · rw [h, select_one]
  · rw [eq_zero_of_ne_one h, select_zero]

/-- The activation `select(c, h, 1·h)` is the identity: `1·h = h` on every extended real, and then both branches
    of the select are `h`. -/
theorem act_id (c : BitVec 1) (h : Ideal .f32) :
    Scalar.select c h (FloatOps.mulf (F := Ideal) (φ := .f32) (FloatOps.ofBits .f32 0x3F800000#32) h) = h := by
  rw [Ideal.ofBits_def, Ideal.mulf_def, ofBits_one, one_mul, select_same]

/-- A rank-1 index with coordinate `a` is `ix1 a`. -/
theorem idx1_ext {n : Nat} (g : (⟨1, ![n]⟩ : Shape).Idx) (a : Fin n) (h0 : g 0 = a) : g = ix1 a := by
  subst h0; exact eq_ix1 g

/-- A rank-2 index with coordinates `a`, `b` is `ix2 a b`. -/
theorem idx2_ext {n0 n1 : Nat} (g : (⟨2, ![n0, n1]⟩ : Shape).Idx) (a : Fin n0) (b : Fin n1)
    (h0 : g 0 = a) (h1 : g 1 = b) : g = ix2 a b := by
  subst h0 h1; exact eq_ix2 g

/-- A rank-3 index with coordinates `a`, `b`, `c` is `ix3 a b c`. -/
theorem idx3_ext {n0 n1 n2 : Nat} (g : (⟨3, ![n0, n1, n2]⟩ : Shape).Idx) (a : Fin n0) (b : Fin n1) (c : Fin n2)
    (h0 : g 0 = a) (h1 : g 1 = b) (h2 : g 2 = c) : g = ix3 a b c := by
  subst h0 h1 h2; exact eq_ix3 g

/-! ## The encoder -/

/-- The batch flattened to [16384, 55]: feature `f` of row `r` is the entry at `(f / 11, f % 11)` of the row's grid,
    because `(55 r + f) / 55 = r`, `(55 r + f) / 11 % 5 = f / 11` and `(55 r + f) % 11 = f % 11` for `f < 55`. -/
theorem v0_at (r : Fin 16384) (f : Fin 55) :
    val_main_v0 (F := Ideal) X (ix2 r f) = X (ix3 r (featRow f) (featCol f)) := by
  have e : idx_main_v0 (ix2 r f) = ix3 r (featRow f) (featCol f) :=
    idx3_ext _ _ _ _
      (Fin.ext (by show (r.val * 55 + f.val) / 55 = r.val; have := f.isLt; omega))
      (Fin.ext (by show (r.val * 55 + f.val) / 11 % 5 = f.val / 11; have := f.isLt; omega))
      (Fin.ext (by show (r.val * 55 + f.val) % 11 = f.val % 11; omega))
  rw [val_main_v0_apply, e]

/-- The first encoder layer before its activation: `x W1ᵀ + b1`. -/
theorem h1_at (r : Fin 16384) (j : Fin 64) :
    val_main_v5 (F := Ideal) X A1 B1 (ix2 r j) = (NN).h1 r j := by
  rw [val_main_v5_apply, Ideal.addf_def, val_main_v2_apply, val_main_v4_apply, val_main_v3_apply]
  show _ = (∑ f, X (ix3 r (featRow f) (featCol f)) * A1 (ix2 j f)) + B1 (ix1 j)
  refine congrArg₂ (· + ·) ?_ ?_
  · refine Finset.sum_congr rfl fun f _ => ?_
    rw [idx2_ext (lidx_main_v2 (ix2 r j) f) r f rfl rfl, idx2_ext (ridx_main_v2 (ix2 r j) f) f j rfl rfl,
      v0_at, val_main_v1_apply, idx2_ext (idx_main_v1 (ix2 f j)) j f rfl rfl]
  · rw [idx1_ext (idx_main_v3 (idx_main_v4 (ix2 r j))) j rfl]

/-- The first activation changes nothing. -/
theorem a1_at (r : Fin 16384) (j : Fin 64) :
    val_main_v10 (F := Ideal) X A1 B1 (ix2 r j) = (NN).h1 r j := by
  rw [val_main_v10_apply, val_main_v9_apply, val_main_v8_apply, val_main_cst_0_apply, act_id,
    h1_at X A1 B1 A2 B2 A3 B3 Q1 D1 Q2 D2 Q3 D3 E]

/-- The second encoder layer before its activation: `h1 W2ᵀ + b2`. -/
theorem h2_at (r : Fin 16384) (k : Fin 64) :
    val_main_v15 (F := Ideal) X A1 B1 A2 B2 (ix2 r k) = (NN).h2 r k := by
  rw [val_main_v15_apply, Ideal.addf_def, val_main_v12_apply, val_main_v14_apply, val_main_v13_apply]
  show _ = (∑ j, (NN).h1 r j * A2 (ix2 k j)) + B2 (ix1 k)
  refine congrArg₂ (· + ·) ?_ ?_
  · refine Finset.sum_congr rfl fun j _ => ?_
    rw [idx2_ext (lidx_main_v12 (ix2 r k) j) r j rfl rfl, idx2_ext (ridx_main_v12 (ix2 r k) j) j k rfl rfl,
      a1_at X A1 B1 A2 B2 A3 B3 Q1 D1 Q2 D2 Q3 D3 E, val_main_v11_apply, idx2_ext (idx_main_v11 (ix2 j k)) k j rfl rfl]
  · rw [idx1_ext (idx_main_v13 (idx_main_v14 (ix2 r k))) k rfl]

/-- The second activation changes nothing. -/
theorem a2_at (r : Fin 16384) (k : Fin 64) :
    val_main_v20 (F := Ideal) X A1 B1 A2 B2 (ix2 r k) = (NN).h2 r k := by
  rw [val_main_v20_apply, val_main_v19_apply, val_main_v18_apply, val_main_cst_2_apply, act_id,
    h2_at X A1 B1 A2 B2 A3 B3 Q1 D1 Q2 D2 Q3 D3 E]

/-- The third encoder layer: `h2 W3ᵀ + b3`. -/
theorem z_at (r : Fin 16384) (c : Fin 2) :
    val_main_v25 (F := Ideal) X A1 B1 A2 B2 A3 B3 (ix2 r c) = (NN).z r c := by
  rw [val_main_v25_apply, Ideal.addf_def, val_main_v22_apply, val_main_v24_apply, val_main_v23_apply]
  show _ = (∑ k, (NN).h2 r k * A3 (ix2 c k)) + B3 (ix1 c)
  refine congrArg₂ (· + ·) ?_ ?_
  · refine Finset.sum_congr rfl fun k _ => ?_
    rw [idx2_ext (lidx_main_v22 (ix2 r c) k) r k rfl rfl, idx2_ext (ridx_main_v22 (ix2 r c) k) k c rfl rfl,
      a2_at X A1 B1 A2 B2 A3 B3 Q1 D1 Q2 D2 Q3 D3 E, val_main_v21_apply, idx2_ext (idx_main_v21 (ix2 k c)) c k rfl rfl]
  · rw [idx1_ext (idx_main_v23 (idx_main_v24 (ix2 r c))) c rfl]

/-- The mean of a row: column 0 of the third layer. -/
theorem ref_mean (r : Fin 16384) :
    val_main_v26 (F := Ideal) X A1 B1 A2 B2 A3 B3 (ix2 r (0 : Fin 1)) = (NN).z r 0 := by
  rw [val_main_v26_apply, idx2_ext (idx_main_v26 (ix2 r (0 : Fin 1))) r (0 : Fin 2) rfl rfl, z_at X A1 B1 A2 B2 A3 B3 Q1 D1 Q2 D2 Q3 D3 E]

/-- The spread of a row: column 1 of the third layer. -/
theorem spread_at (r : Fin 16384) :
    val_main_v27 (F := Ideal) X A1 B1 A2 B2 A3 B3 (ix2 r (0 : Fin 1)) = (NN).z r 1 := by
  rw [val_main_v27_apply, idx2_ext (idx_main_v27 (ix2 r (0 : Fin 1))) r (1 : Fin 2) rfl rfl, z_at X A1 B1 A2 B2 A3 B3 Q1 D1 Q2 D2 Q3 D3 E]

/-- The exponential of the spread, the program's second result. -/
theorem ref_expstd (r : Fin 16384) :
    val_main_v56 (F := Ideal) X A1 B1 A2 B2 A3 B3 (ix2 r (0 : Fin 1)) = Ideal.exp ((NN).z r 1) := by
  rw [val_main_v56_apply, Ideal.hostUnary_exp_def, spread_at X A1 B1 A2 B2 A3 B3 Q1 D1 Q2 D2 Q3 D3 E]

/-! ## The sample and the decoder -/

/-- The sample of a row: mean plus spread times the row's noise. -/
theorem s_at (r : Fin 16384) :
    val_main_v29 (F := Ideal) X A1 B1 A2 B2 A3 B3 E (ix2 r (0 : Fin 1)) = (NN).s r := by
  rw [val_main_v29_apply, Ideal.addf_def, val_main_v28_apply, Ideal.mulf_def, ref_mean X A1 B1 A2 B2 A3 B3 Q1 D1 Q2 D2 Q3 D3 E, spread_at X A1 B1 A2 B2 A3 B3 Q1 D1 Q2 D2 Q3 D3 E]
  rfl

/-- The first decoder layer before its activation: the contraction runs over an axis of extent 1, so its sum is its
    one term, `s R1ᵀ + c1`. -/
theorem r1_at (r : Fin 16384) (j : Fin 128) :
    val_main_v34 (F := Ideal) X A1 B1 A2 B2 A3 B3 Q1 D1 E (ix2 r j) = (NN).r1 r j := by
  rw [val_main_v34_apply, Ideal.addf_def, val_main_v31_apply, Fin.sum_univ_one, val_main_v33_apply, val_main_v32_apply,
    idx2_ext (lidx_main_v31 (ix2 r j) 0) r (0 : Fin 1) rfl rfl, idx2_ext (ridx_main_v31 (ix2 r j) 0) (0 : Fin 1) j rfl rfl,
    s_at X A1 B1 A2 B2 A3 B3 Q1 D1 Q2 D2 Q3 D3 E, val_main_v30_apply, idx2_ext (idx_main_v30 (ix2 (0 : Fin 1) j)) j (0 : Fin 1) rfl rfl,
    idx1_ext (idx_main_v32 (idx_main_v33 (ix2 r j))) j rfl]
  rfl

/-- The first decoder activation changes nothing. -/
theorem b1_at (r : Fin 16384) (j : Fin 128) :
    val_main_v39 (F := Ideal) X A1 B1 A2 B2 A3 B3 Q1 D1 E (ix2 r j) = (NN).r1 r j := by
  rw [val_main_v39_apply, val_main_v38_apply, val_main_v37_apply, val_main_cst_4_apply, act_id,
    r1_at X A1 B1 A2 B2 A3 B3 Q1 D1 Q2 D2 Q3 D3 E]

/-- The second decoder layer before its activation: `r1 R2ᵀ + c2`. -/
theorem r2_at (r : Fin 16384) (k : Fin 64) :
    val_main_v44 (F := Ideal) X A1 B1 A2 B2 A3 B3 Q1 D1 Q2 D2 E (ix2 r k) = (NN).r2 r k := by
  rw [val_main_v44_apply, Ideal.addf_def, val_main_v41_apply, val_main_v43_apply, val_main_v42_apply]
  show _ = (∑ j, (NN).r1 r j * Q2 (ix2 k j)) + D2 (ix1 k)
  refine congrArg₂ (· + ·) ?_ ?_
  · refine Finset.sum_congr rfl fun j _ => ?_
    rw [idx2_ext (lidx_main_v41 (ix2 r k) j) r j rfl rfl, idx2_ext (ridx_main_v41 (ix2 r k) j) j k rfl rfl,
      b1_at X A1 B1 A2 B2 A3 B3 Q1 D1 Q2 D2 Q3 D3 E, val_main_v40_apply, idx2_ext (idx_main_v40 (ix2 j k)) k j rfl rfl]
  · rw [idx1_ext (idx_main_v42 (idx_main_v43 (ix2 r k))) k rfl]

/-- The second decoder activation changes nothing. -/
theorem b2_at (r : Fin 16384) (k : Fin 64) :
    val_main_v49 (F := Ideal) X A1 B1 A2 B2 A3 B3 Q1 D1 Q2 D2 E (ix2 r k) = (NN).r2 r k := by
  rw [val_main_v49_apply, val_main_v48_apply, val_main_v47_apply, val_main_cst_6_apply, act_id,
    r2_at X A1 B1 A2 B2 A3 B3 Q1 D1 Q2 D2 Q3 D3 E]

/-- The third decoder layer: `r2 R3ᵀ + c3`, the 220 produced features of a row. -/
theorem p_at (r : Fin 16384) (q : Fin 220) :
    val_main_v54 (F := Ideal) X A1 B1 A2 B2 A3 B3 Q1 D1 Q2 D2 Q3 D3 E (ix2 r q) = (NN).p r q := by
  rw [val_main_v54_apply, Ideal.addf_def, val_main_v51_apply, val_main_v53_apply, val_main_v52_apply]
  show _ = (∑ k, (NN).r2 r k * Q3 (ix2 q k)) + D3 (ix1 q)
  refine congrArg₂ (· + ·) ?_ ?_
  · refine Finset.sum_congr rfl fun k _ => ?_
    rw [idx2_ext (lidx_main_v51 (ix2 r q) k) r k rfl rfl, idx2_ext (ridx_main_v51 (ix2 r q) k) k q rfl rfl,
      b2_at X A1 B1 A2 B2 A3 B3 Q1 D1 Q2 D2 Q3 D3 E, val_main_v50_apply, idx2_ext (idx_main_v50 (ix2 k q)) q k rfl rfl]
  · rw [idx1_ext (idx_main_v52 (idx_main_v53 (ix2 r q))) q rfl]

/-- The produced features as [16384, 20, 11]: cell `(h, w)` of row `r` is produced feature `11 h + w`, because
    `((20 r + h) 11 + w) / 220 = r` and `((20 r + h) 11 + w) % 220 = 11 h + w` for `h < 20`, `w < 11`. -/
theorem ref_prod (r : Fin 16384) (h : Fin 20) (w : Fin 11) :
    val_main_v55 (F := Ideal) X A1 B1 A2 B2 A3 B3 Q1 D1 Q2 D2 Q3 D3 E (ix3 r h w) = (NN).p r (cell h w) := by
  have e : idx_main_v55 (ix3 r h w) = ix2 r (cell h w) :=
    idx2_ext _ _ _
      (Fin.ext (by show ((r.val * 20 + h.val) * 11 + w.val) / 220 = r.val; have := h.isLt; have := w.isLt; omega))
      (Fin.ext (by show ((r.val * 20 + h.val) * 11 + w.val) % 220 = h.val * 11 + w.val; have := h.isLt; have := w.isLt; omega))
  rw [val_main_v55_apply, e, p_at X A1 B1 A2 B2 A3 B3 Q1 D1 Q2 D2 Q3 D3 E]

end Cert.RefSide

end
-- ==== Proof.Algebra.lean ====
/-
  The layered and the folded arrangement of the network agree.

  Over the reals, each chain of three affine layers with the identity between them is one affine map: distribute the
  products over the sums, exchange the order of summation, and reassociate.  The coercion of the reals into the extended
  reals respects addition, multiplication and finite sums, so every function of the coerced network is the coercion of
  the same function of the real network, and the agreement passes to the extended reals.
-/
import proofs.«176251_g39084202394388_cont_8to1_b_76_3_alg».proof.Proof.Spec
import Mathlib.Data.Real.Basic
import Mathlib.Data.EReal.Basic
import Mathlib.Algebra.BigOperators.Ring.Finset

open scoped BigOperators

namespace Cert.Spec

/-! ## Over the reals -/

/-- The second encoder layer is the batch times `W1ᵀ W2ᵀ` plus the row `b1 W2ᵀ + b2`. -/
theorem h2_eq_real (N : Net ℝ) (r : Fin 16384) (k : Fin 64) :
    N.h2 r k = (∑ f, N.x r f * N.T12 f k) + N.arow k := by
  unfold Net.h2 Net.h1 Net.T12 Net.arow
  simp only [add_mul, Finset.sum_add_distrib, Finset.sum_mul, Finset.mul_sum]
  rw [Finset.sum_comm]
  simp only [mul_assoc, add_assoc]

/-- The encoder is the batch times `M` plus the row `a`. -/
theorem z_eq_zf_real (N : Net ℝ) (r : Fin 16384) (c : Fin 2) : N.z r c = N.zf r c := by
  unfold Net.z Net.zf Net.M Net.a
  simp only [h2_eq_real, add_mul, Finset.sum_add_distrib, Finset.sum_mul, Finset.mul_sum]
  rw [Finset.sum_comm]
  simp only [mul_assoc, add_assoc]

/-- The sample is the same in both arrangements. -/
theorem s_eq_sf_real (N : Net ℝ) (r : Fin 16384) : N.s r = N.sf r := by
  unfold Net.s Net.sf
  rw [z_eq_zf_real, z_eq_zf_real]

/-- The second decoder layer is the sample times `R1ᵀ R2ᵀ` plus the row `c1 R2ᵀ + c2`. -/
theorem r2_eq_real (N : Net ℝ) (r : Fin 16384) (k : Fin 64) :
    N.r2 r k = N.s r * N.crow k + N.drow k := by
  unfold Net.r2 Net.r1 Net.crow Net.drow
  simp only [add_mul, Finset.sum_add_distrib, Finset.mul_sum]
  simp only [mul_assoc, add_assoc]

/-- The decoder is the sample times `C` plus the row `d`. -/
theorem p_eq_real (N : Net ℝ) (r : Fin 16384) (q : Fin 220) :
    N.p r q = N.s r * N.C q + N.d q := by
  unfold Net.p Net.C Net.d
  simp only [r2_eq_real, add_mul, Finset.sum_add_distrib, Finset.mul_sum]
  simp only [mul_assoc, add_assoc]

theorem p_eq_pf_real (N : Net ℝ) (r : Fin 16384) (q : Fin 220) : N.p r q = N.pf r q := by
  rw [p_eq_real, s_eq_sf_real]
  rfl

/-! ## The coercion into the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Coe

variable (N : Net ℝ)

/-- The network with every entry coerced into the extended reals. -/
local notation "Nc" => Net.map ((↑) : ℝ → EReal) N

theorem map_coe_h1 (r : Fin 16384) (j : Fin 64) : (Nc).h1 r j = ((N.h1 r j : ℝ) : EReal) := by
  simp only [Net.h1, Net.map, coe_sum, EReal.coe_add, EReal.coe_mul]

theorem map_coe_h2 (r : Fin 16384) (k : Fin 64) : (Nc).h2 r k = ((N.h2 r k : ℝ) : EReal) := by
  unfold Net.h2
  simp only [map_coe_h1, coe_sum, EReal.coe_add, EReal.coe_mul]
  rfl

theorem map_coe_z (r : Fin 16384) (c : Fin 2) : (Nc).z r c = ((N.z r c : ℝ) : EReal) := by
  unfold Net.z
  simp only [map_coe_h2, coe_sum, EReal.coe_add, EReal.coe_mul]
  rfl

theorem map_coe_s (r : Fin 16384) : (Nc).s r = ((N.s r : ℝ) : EReal) := by
  unfold Net.s
  simp only [map_coe_z, EReal.coe_add, EReal.coe_mul]
  rfl

theorem map_coe_r1 (r : Fin 16384) (j : Fin 128) : (Nc).r1 r j = ((N.r1 r j : ℝ) : EReal) := by
  unfold Net.r1
  simp only [map_coe_s, EReal.coe_add, EReal.coe_mul]
  rfl

theorem map_coe_r2 (r : Fin 16384) (k : Fin 64) : (Nc).r2 r k = ((N.r2 r k : ℝ) : EReal) := by
  unfold Net.r2
  simp only [map_coe_r1, coe_sum, EReal.coe_add, EReal.coe_mul]
  rfl

theorem map_coe_p (r : Fin 16384) (q : Fin 220) : (Nc).p r q = ((N.p r q : ℝ) : EReal) := by
  unfold Net.p
  simp only [map_coe_r2, coe_sum, EReal.coe_add, EReal.coe_mul]
  rfl

theorem map_coe_T12 (f : Fin 55) (k : Fin 64) : (Nc).T12 f k = ((N.T12 f k : ℝ) : EReal) := by
  simp only [Net.T12, Net.map, coe_sum, EReal.coe_mul]

theorem map_coe_M (f : Fin 55) (c : Fin 2) : (Nc).M f c = ((N.M f c : ℝ) : EReal) := by
  unfold Net.M
  simp only [map_coe_T12, coe_sum, EReal.coe_mul]
  rfl

theorem map_coe_arow (k : Fin 64) : (Nc).arow k = ((N.arow k : ℝ) : EReal) := by
  simp only [Net.arow, Net.map, coe_sum, EReal.coe_add, EReal.coe_mul]

theorem map_coe_a (c : Fin 2) : (Nc).a c = ((N.a c : ℝ) : EReal) := by
  unfold Net.a
  simp only [map_coe_arow, coe_sum, EReal.coe_add, EReal.coe_mul]
  rfl

theorem map_coe_crow (k : Fin 64) : (Nc).crow k = ((N.crow k : ℝ) : EReal) := by
  simp only [Net.crow, Net.map, coe_sum, EReal.coe_mul]

theorem map_coe_C (q : Fin 220) : (Nc).C q = ((N.C q : ℝ) : EReal) := by
  unfold Net.C
  simp only [map_coe_crow, coe_sum, EReal.coe_mul]
  rfl

theorem map_coe_drow (k : Fin 64) : (Nc).drow k = ((N.drow k : ℝ) : EReal) := by
  simp only [Net.drow, Net.map, coe_sum, EReal.coe_add, EReal.coe_mul]

theorem map_coe_d (q : Fin 220) : (Nc).d q = ((N.d q : ℝ) : EReal) := by
  unfold Net.d
  simp only [map_coe_drow, coe_sum, EReal.coe_add, EReal.coe_mul]
  rfl

theorem map_coe_zf (r : Fin 16384) (c : Fin 2) : (Nc).zf r c = ((N.zf r c : ℝ) : EReal) := by
  unfold Net.zf
  simp only [map_coe_M, map_coe_a, coe_sum, EReal.coe_add, EReal.coe_mul]
  rfl

theorem map_coe_sf (r : Fin 16384) : (Nc).sf r = ((N.sf r : ℝ) : EReal) := by
  unfold Net.sf
  simp only [map_coe_zf, EReal.coe_add, EReal.coe_mul]
  rfl

theorem map_coe_pf (r : Fin 16384) (q : Fin 220) : (Nc).pf r q = ((N.pf r q : ℝ) : EReal) := by
  unfold Net.pf
  simp only [map_coe_sf, map_coe_C, map_coe_d, EReal.coe_add, EReal.coe_mul]

end Coe

/-! ## Over the extended reals -/

theorem z_eq_zf (N : Net ℝ) (r : Fin 16384) (c : Fin 2) :
    (N.map ((↑) : ℝ → EReal)).z r c = (N.map ((↑) : ℝ → EReal)).zf r c := by
  rw [map_coe_z, map_coe_zf, z_eq_zf_real]

theorem p_eq_pf (N : Net ℝ) (r : Fin 16384) (q : Fin 220) :
    (N.map ((↑) : ℝ → EReal)).p r q = (N.map ((↑) : ℝ → EReal)).pf r q := by
  rw [map_coe_p, map_coe_pf, p_eq_pf_real]

end Cert.Spec
-- ==== Proof.Finite.lean ====
/-
  Under the precondition every argument entry is a real number.

  The precondition is the conjunction of fourteen tests "every entry has absolute value below +∞", one per argument
  array.  At the ideal instance an entry is an extended real, and one whose absolute value is below +∞ is neither
  infinity, hence the inclusion of a real number.  So each argument array is, entry by entry, the inclusion of a real
  array.
-/
import proofs.«176251_g39084202394388_cont_8to1_b_76_3_alg».proof.Defs
import proofs.«176251_g39084202394388_cont_8to1_b_76_3_alg».proof.Proof.Gen.Pre_finite_inputs
import Idealize.ShloMosaic.Lib.ReduceAll
import Idealize.ShloMosaic.Lib.ValueIdx
import Idealize.ShloMosaic.PureOps.Ideal.Laws

/-!
  Finiteness of the argument arrays. The precondition is the conjunction, over the fourteen float
  arrays, of "every entry x has |x| < +∞". Over the extended reals |x| is max x (-x), and
  max x (-x) < ⊤ excludes both x = ⊤ and x = ⊥, so x is the coercion of a real number. Hence each
  array is, entry by entry, the coercion of a real array.
-/

noncomputable section

namespace Cert.Finite

open Idealize.ShloMosaic Idealize.SL.Sem

/-- The shape of a scalar has exactly one index. -/
instance subsingleton_scalar_idx : Subsingleton Cert.Pre_finite_inputs.S_.Idx :=
  ⟨fun a b => funext fun d => d.elim0⟩

/-- An array is real when it is, entry by entry, the coercion of a real array. -/
def IsReal {s : Shape} (x : s.Idx → EReal) : Prop :=
  ∃ f : s.Idx → ℝ, x = fun i => ((f i : ℝ) : EReal)

/-- One value: |x| < +∞ over the extended reals says x is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = ((r : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  induction x using EReal.rec with
  | bot => simp at hlt
  | coe r => exact ⟨r, rfl⟩
  | top => simp at hlt

/-- One array: the conjunction over all entries of |x| < +∞ being one says the array is real. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ValueIdx.ix0 = 1#1) :
    IsReal x := by
  have hi : ∀ i : s.Idx, ∃ r : ℝ, (x i : EReal) = ((r : ℝ) : EReal) := fun i =>
    real_of_abs_lt_inf (x i) (Host.reduce_andi_all _ _ hr hu _ e i)
  choose f hf using hi
  exact ⟨f, funext hf⟩

variable [hPre : Cert.Pre_finite_inputs.Facts]

/-- The whole predicate: the conjunction of the fourteen per-array conjunctions being one says every
    argument array is real. The conjunction is nested to the left, in the order of the arguments. -/
theorem split
    (x0 : FVec Ideal Cert.Pre_finite_inputs.S16384x5x11 .f32)
    (x1 : FVec Ideal Cert.Pre_finite_inputs.S64x55 .f32)
    (x2 : FVec Ideal Cert.Pre_finite_inputs.S64 .f32)
    (x3 : FVec Ideal Cert.Pre_finite_inputs.S64x64 .f32)
    (x4 : FVec Ideal Cert.Pre_finite_inputs.S64 .f32)
    (x5 : FVec Ideal Cert.Pre_finite_inputs.S2x64 .f32)
    (x6 : FVec Ideal Cert.Pre_finite_inputs.S2 .f32)
    (x7 : FVec Ideal Cert.Pre_finite_inputs.S128x1 .f32)
    (x8 : FVec Ideal Cert.Pre_finite_inputs.S128 .f32)
    (x9 : FVec Ideal Cert.Pre_finite_inputs.S64x128 .f32)
    (x10 : FVec Ideal Cert.Pre_finite_inputs.S64 .f32)
    (x11 : FVec Ideal Cert.Pre_finite_inputs.S220x64 .f32)
    (x12 : FVec Ideal Cert.Pre_finite_inputs.S220 .f32)
    (x13 : FVec Ideal Cert.Pre_finite_inputs.S16384x1 .f32)
    (e : Cert.Pre_finite_inputs.fn (F := Ideal) x0 x1 x2 x3 x4 x5 x6 x7 x8 x9 x10 x11 x12 x13 = fun _ => 1#1) :
    IsReal x0 ∧ IsReal x1 ∧ IsReal x2 ∧ IsReal x3 ∧ IsReal x4 ∧ IsReal x5 ∧ IsReal x6 ∧ IsReal x7 ∧ IsReal x8 ∧ IsReal x9 ∧ IsReal x10 ∧ IsReal x11 ∧ IsReal x12 ∧ IsReal x13 := by
  have e0 := congrFun e ValueIdx.ix0
  dsimp only [Cert.Pre_finite_inputs.fn, Cert.Pre_finite_inputs.fn_part1, Cert.Pre_finite_inputs.fn_part2, Cert.Pre_finite_inputs.fn_part3,
    Cert.Pre_finite_inputs.fn_part4, andi] at e0
  simp only [IntOp.andi_eq_one] at e0
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := e0
  exact ⟨isReal_of_all _ _ _ _ h0,
    isReal_of_all _ _ _ _ h1,
    isReal_of_all _ _ _ _ h2,
    isReal_of_all _ _ _ _ h3,
    isReal_of_all _ _ _ _ h4,
    isReal_of_all _ _ _ _ h5,
    isReal_of_all _ _ _ _ h6,
    isReal_of_all _ _ _ _ h7,
    isReal_of_all _ _ _ _ h8,
    isReal_of_all _ _ _ _ h9,
    isReal_of_all _ _ _ _ h10,
    isReal_of_all _ _ _ _ h11,
    isReal_of_all _ _ _ _ h12,
    isReal_of_all _ _ _ _ h13⟩

open Cert.KernelIdeal

/-- Argument 0 is a real array. -/
theorem real_arg0 (m : (ℓ : Loc nD τ sig) → Buf (Elt Ideal) ℓ) (h : Cert.Pre_KernelIdeal m) (c : Dev nD) :
    ∃ f : S16384x5x11.Idx → ℝ,
      (m ((c.tc : Thread nD τ).loc main_arg0) : S16384x5x11.Idx → EReal) = fun i => ((f i : ℝ) : EReal) :=
  (split _ _ _ _ _ _ _ _ _ _ _ _ _ _ (h c)).1

/-- Argument 1 is a real array. -/
theorem real_arg1 (m : (ℓ : Loc nD τ sig) → Buf (Elt Ideal) ℓ) (h : Cert.Pre_KernelIdeal m) (c : Dev nD) :
    ∃ f : S64x55.Idx → ℝ,
      (m ((c.tc : Thread nD τ).loc main_arg1) : S64x55.Idx → EReal) = fun i => ((f i : ℝ) : EReal) :=
  (split _ _ _ _ _ _ _ _ _ _ _ _ _ _ (h c)).2.1

/-- Argument 2 is a real array. -/
theorem real_arg2 (m : (ℓ : Loc nD τ sig) → Buf (Elt Ideal) ℓ) (h : Cert.Pre_KernelIdeal m) (c : Dev nD) :
    ∃ f : S64.Idx → ℝ,
      (m ((c.tc : Thread nD τ).loc main_arg2) : S64.Idx → EReal) = fun i => ((f i : ℝ) : EReal) :=
  (split _ _ _ _ _ _ _ _ _ _ _ _ _ _ (h c)).2.2.1

/-- Argument 3 is a real array. -/
theorem real_arg3 (m : (ℓ : Loc nD τ sig) → Buf (Elt Ideal) ℓ) (h : Cert.Pre_KernelIdeal m) (c : Dev nD) :
    ∃ f : S64x64.Idx → ℝ,
      (m ((c.tc : Thread nD τ).loc main_arg3) : S64x64.Idx → EReal) = fun i => ((f i : ℝ) : EReal) :=
  (split _ _ _ _ _ _ _ _ _ _ _ _ _ _ (h c)).2.2.2.1

/-- Argument 4 is a real array. -/
theorem real_arg4 (m : (ℓ : Loc nD τ sig) → Buf (Elt Ideal) ℓ) (h : Cert.Pre_KernelIdeal m) (c : Dev nD) :
    ∃ f : S64.Idx → ℝ,
      (m ((c.tc : Thread nD τ).loc main_arg4) : S64.Idx → EReal) = fun i => ((f i : ℝ) : EReal) :=
  (split _ _ _ _ _ _ _ _ _ _ _ _ _ _ (h c)).2.2.2.2.1

/-- Argument 5 is a real array. -/
theorem real_arg5 (m : (ℓ : Loc nD τ sig) → Buf (Elt Ideal) ℓ) (h : Cert.Pre_KernelIdeal m) (c : Dev nD) :
    ∃ f : S2x64.Idx → ℝ,
      (m ((c.tc : Thread nD τ).loc main_arg5) : S2x64.Idx → EReal) = fun i => ((f i : ℝ) : EReal) :=
  (split _ _ _ _ _ _ _ _ _ _ _ _ _ _ (h c)).2.2.2.2.2.1

/-- Argument 6 is a real array. -/
theorem real_arg6 (m : (ℓ : Loc nD τ sig) → Buf (Elt Ideal) ℓ) (h : Cert.Pre_KernelIdeal m) (c : Dev nD) :
    ∃ f : S2.Idx → ℝ,
      (m ((c.tc : Thread nD τ).loc main_arg6) : S2.Idx → EReal) = fun i => ((f i : ℝ) : EReal) :=
  (split _ _ _ _ _ _ _ _ _ _ _ _ _ _ (h c)).2.2.2.2.2.2.1

/-- Argument 7 is a real array. -/
theorem real_arg7 (m : (ℓ : Loc nD τ sig) → Buf (Elt Ideal) ℓ) (h : Cert.Pre_KernelIdeal m) (c : Dev nD) :
    ∃ f : S128x1.Idx → ℝ,
      (m ((c.tc : Thread nD τ).loc main_arg7) : S128x1.Idx → EReal) = fun i => ((f i : ℝ) : EReal) :=
  (split _ _ _ _ _ _ _ _ _ _ _ _ _ _ (h c)).2.2.2.2.2.2.2.1

/-- Argument 8 is a real array. -/
theorem real_arg8 (m : (ℓ : Loc nD τ sig) → Buf (Elt Ideal) ℓ) (h : Cert.Pre_KernelIdeal m) (c : Dev nD) :
    ∃ f : S128.Idx → ℝ,
      (m ((c.tc : Thread nD τ).loc main_arg8) : S128.Idx → EReal) = fun i => ((f i : ℝ) : EReal) :=
  (split _ _ _ _ _ _ _ _ _ _ _ _ _ _ (h c)).2.2.2.2.2.2.2.2.1

/-- Argument 9 is a real array. -/
theorem real_arg9 (m : (ℓ : Loc nD τ sig) → Buf (Elt Ideal) ℓ) (h : Cert.Pre_KernelIdeal m) (c : Dev nD) :
    ∃ f : S64x128.Idx → ℝ,
      (m ((c.tc : Thread nD τ).loc main_arg9) : S64x128.Idx → EReal) = fun i => ((f i : ℝ) : EReal) :=
  (split _ _ _ _ _ _ _ _ _ _ _ _ _ _ (h c)).2.2.2.2.2.2.2.2.2.1

/-- Argument 10 is a real array. -/
theorem real_arg10 (m : (ℓ : Loc nD τ sig) → Buf (Elt Ideal) ℓ) (h : Cert.Pre_KernelIdeal m) (c : Dev nD) :
    ∃ f : S64.Idx → ℝ,
      (m ((c.tc : Thread nD τ).loc main_arg10) : S64.Idx → EReal) = fun i => ((f i : ℝ) : EReal) :=
  (split _ _ _ _ _ _ _ _ _ _ _ _ _ _ (h c)).2.2.2.2.2.2.2.2.2.2.1

/-- Argument 11 is a real array. -/
theorem real_arg11 (m : (ℓ : Loc nD τ sig) → Buf (Elt Ideal) ℓ) (h : Cert.Pre_KernelIdeal m) (c : Dev nD) :
    ∃ f : S220x64.Idx → ℝ,
      (m ((c.tc : Thread nD τ).loc main_arg11) : S220x64.Idx → EReal) = fun i => ((f i : ℝ) : EReal) :=
  (split _ _ _ _ _ _ _ _ _ _ _ _ _ _ (h c)).2.2.2.2.2.2.2.2.2.2.2.1

/-- Argument 12 is a real array. -/
theorem real_arg12 (m : (ℓ : Loc nD τ sig) → Buf (Elt Ideal) ℓ) (h : Cert.Pre_KernelIdeal m) (c : Dev nD) :
    ∃ f : S220.Idx → ℝ,
      (m ((c.tc : Thread nD τ).loc main_arg12) : S220.Idx → EReal) = fun i => ((f i : ℝ) : EReal) :=
  (split _ _ _ _ _ _ _ _ _ _ _ _ _ _ (h c)).2.2.2.2.2.2.2.2.2.2.2.2.1

/-- Argument 13 is a real array. -/
theorem real_arg13 (m : (ℓ : Loc nD τ sig) → Buf (Elt Ideal) ℓ) (h : Cert.Pre_KernelIdeal m) (c : Dev nD) :
    ∃ f : S16384x1.Idx → ℝ,
      (m ((c.tc : Thread nD τ).loc main_arg13) : S16384x1.Idx → EReal) = fun i => ((f i : ℝ) : EReal) :=
  (split _ _ _ _ _ _ _ _ _ _ _ _ _ _ (h c)).2.2.2.2.2.2.2.2.2.2.2.2.2

end Cert.Finite

end
-- ==== Proof.Bridge.lean ====
/-
  The two programs' results are equal, entry by entry, under the precondition.

  From memories that agree on the fourteen arguments, the reference's results are the LAYERED network of the launch
  memory (mean `z(r, 0)`, exponential of the spread `z(r, 1)`, produced features `p(r, q)`) and the idealized
  kernel's are the FOLDED one (`zf`, `pf`).  The precondition makes every argument entry a real number, so the network
  is the image of a real network under the inclusion of the reals in the extended reals; over the reals composing the
  affine layers first or applying them one after the other is the same map, and the inclusion respects sums and products.
-/
import proofs.«176251_g39084202394388_cont_8to1_b_76_3_alg».proof.Defs
import proofs.«176251_g39084202394388_cont_8to1_b_76_3_alg».proof.Proof.KValue
import proofs.«176251_g39084202394388_cont_8to1_b_76_3_alg».proof.Proof.RefSide
import proofs.«176251_g39084202394388_cont_8to1_b_76_3_alg».proof.Proof.Algebra
import proofs.«176251_g39084202394388_cont_8to1_b_76_3_alg».proof.Proof.Finite

noncomputable section

namespace Cert.Bridge

open Idealize.ShloMosaic Idealize.ShloMosaic.TcCoe Idealize.SL.Sem Idealize.ShloMosaic.ValueIdx Cert.Spec
open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- Under the precondition the network of the launch memory is a real network, included in the extended reals. -/
theorem net_real (hpre : Cert.Pre_KernelIdeal m) (c : Dev Cert.KernelIdeal.nD) :
    ∃ N : Net ℝ, KValue.net m c = N.map ((↑) : ℝ → EReal) := by
  obtain ⟨f0, e0⟩ := Cert.Finite.real_arg0 m hpre c
  obtain ⟨f1, e1⟩ := Cert.Finite.real_arg1 m hpre c
  obtain ⟨f2, e2⟩ := Cert.Finite.real_arg2 m hpre c
  obtain ⟨f3, e3⟩ := Cert.Finite.real_arg3 m hpre c
  obtain ⟨f4, e4⟩ := Cert.Finite.real_arg4 m hpre c
  obtain ⟨f5, e5⟩ := Cert.Finite.real_arg5 m hpre c
  obtain ⟨f6, e6⟩ := Cert.Finite.real_arg6 m hpre c
  obtain ⟨f7, e7⟩ := Cert.Finite.real_arg7 m hpre c
  obtain ⟨f8, e8⟩ := Cert.Finite.real_arg8 m hpre c
  obtain ⟨f9, e9⟩ := Cert.Finite.real_arg9 m hpre c
  obtain ⟨f10, e10⟩ := Cert.Finite.real_arg10 m hpre c
  obtain ⟨f11, e11⟩ := Cert.Finite.real_arg11 m hpre c
  obtain ⟨f12, e12⟩ := Cert.Finite.real_arg12 m hpre c
  obtain ⟨f13, e13⟩ := Cert.Finite.real_arg13 m hpre c
  have key : KValue.net m c = netOf (α := EReal) (fun i => ((f0 i : ℝ) : EReal)) (fun i => ((f1 i : ℝ) : EReal)) (fun i => ((f2 i : ℝ) : EReal)) (fun i => ((f3 i : ℝ) : EReal)) (fun i => ((f4 i : ℝ) : EReal)) (fun i => ((f5 i : ℝ) : EReal)) (fun i => ((f6 i : ℝ) : EReal)) (fun i => ((f7 i : ℝ) : EReal)) (fun i => ((f8 i : ℝ) : EReal)) (fun i => ((f9 i : ℝ) : EReal)) (fun i => ((f10 i : ℝ) : EReal)) (fun i => ((f11 i : ℝ) : EReal)) (fun i => ((f12 i : ℝ) : EReal)) (fun i => ((f13 i : ℝ) : EReal)) := by
    rw [← e0, ← e1, ← e2, ← e3, ← e4, ← e5, ← e6, ← e7, ← e8, ← e9, ← e10, ← e11, ← e12, ← e13]
  exact ⟨netOf f0 f1 f2 f3 f4 f5 f6 f7 f8 f9 f10 f11 f12 f13, key.trans (netOf_comp (fun x : ℝ => (x : EReal)) f0 f1 f2 f3 f4 f5 f6 f7 f8 f9 f10 f11 f12 f13)⟩

/-- The agreement of the two memories on the arguments, as the statement spells it. -/
def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-- Memories that agree on the arguments carry the same network. -/
theorem ref_net (hagree : Agree m m') (c : Dev Cert.KernelIdeal.nD) :
    netOf (α := EReal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = KValue.net m c := by
  obtain ⟨a0, a1, a2, a3, a4, a5, a6, a7, a8, a9, a10, a11, a12, a13⟩ := hagree c
  rw [a0, a1, a2, a3, a4, a5, a6, a7, a8, a9, a10, a11, a12, a13]

/-- The reference's first result is the kernel's. -/
theorem mean_eq (hpre : Cert.Pre_KernelIdeal m) (hagree : Agree m m') (c : Dev Cert.KernelIdeal.nD) :
    Cert.ReferenceIdeal.ValueP.res_main_v26 (F := Ideal) m' c = W3 m ρ c (Proc.devRef .tc Cert.KernelIdeal.main_v13_0) := by
  refine funext fun (i : Cert.ReferenceIdeal.S16384x1.Idx) => ?_
  obtain ⟨r, u, rfl⟩ : ∃ (r : Fin 16384) (u : Fin 1), i = ix2 r u := ⟨i 0, i 1, eq_ix2 i⟩
  obtain rfl : u = 0 := Subsingleton.elim _ _
  rw [Cert.ReferenceIdeal.ReadP.val_main_v26_eq]
  refine (Cert.RefSide.ref_mean (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) r).trans ?_
  refine (congrArg (fun N : Net EReal => N.z r 0) (ref_net m m' hagree c)).trans ?_
  refine Eq.trans ?_ (KValue.out_mean m ρ c r).symm
  obtain ⟨N, hN⟩ := net_real m hpre c
  rw [hN]
  exact Cert.Spec.z_eq_zf N r 0

/-- The reference's second result is the kernel's. -/
theorem exp_eq (hpre : Cert.Pre_KernelIdeal m) (hagree : Agree m m') (c : Dev Cert.KernelIdeal.nD) :
    Cert.ReferenceIdeal.ValueP.res_main_v56 (F := Ideal) m' c = W3 m ρ c (Proc.devRef .tc Cert.KernelIdeal.main_v13_1) := by
  refine funext fun (i : Cert.ReferenceIdeal.S16384x1.Idx) => ?_
  obtain ⟨r, u, rfl⟩ : ∃ (r : Fin 16384) (u : Fin 1), i = ix2 r u := ⟨i 0, i 1, eq_ix2 i⟩
  obtain rfl : u = 0 := Subsingleton.elim _ _
  rw [Cert.ReferenceIdeal.ReadP.val_main_v56_eq]
  refine (Cert.RefSide.ref_expstd (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) r).trans ?_
  refine (congrArg (fun N : Net EReal => Ideal.exp (N.z r 1)) (ref_net m m' hagree c)).trans ?_
  refine Eq.trans ?_ (KValue.out_exp m ρ c r).symm
  obtain ⟨N, hN⟩ := net_real m hpre c
  rw [hN]
  exact congrArg Ideal.exp (Cert.Spec.z_eq_zf N r 1)

/-- The reference's third result is the kernel's. -/
theorem prod_eq (hpre : Cert.Pre_KernelIdeal m) (hagree : Agree m m') (c : Dev Cert.KernelIdeal.nD) :
    Cert.ReferenceIdeal.ValueP.res_main_v55 (F := Ideal) m' c = W3 m ρ c (Proc.devRef .tc Cert.KernelIdeal.main_v13_2) := by
  refine funext fun (i : Cert.ReferenceIdeal.S16384x20x11.Idx) => ?_
  obtain ⟨r, h, w, rfl⟩ : ∃ (r : Fin 16384) (h : Fin 20) (w : Fin 11), i = ix3 r h w := ⟨i 0, i 1, i 2, eq_ix3 i⟩
  rw [Cert.ReferenceIdeal.ReadP.val_main_v55_eq]
  refine (Cert.RefSide.ref_prod (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) r h w).trans ?_
  refine (congrArg (fun N : Net EReal => N.p r (cell h w)) (ref_net m m' hagree c)).trans ?_
  refine Eq.trans ?_ (KValue.out_prod m ρ c r h w).symm
  obtain ⟨N, hN⟩ := net_real m hpre c
  rw [hN]
  exact Cert.Spec.p_eq_pf N r (cell h w)

end Cert.Bridge

end
-- ==== Proof.lean ====
/-
  The certificate of a two-kernel variational recommender against its layered reference.

  The reference takes a batch of 16384 rows of 5 × 11 features through three affine layers, reads the two outputs of a
  row as a mean and a spread, samples `mean + spread · e` with the row's noise, takes the sample through three more
  affine layers, and returns the mean, the exponential of the spread, and the 220 produced features as a 20 × 11 grid.
  Its activation `h ↦ (h ≥ 0 ? h : 1 · h)` is the identity, so each chain of three layers is one affine map.  The kernel
  uses exactly that: a first region composes each chain on the weights alone (a [55, 2] matrix with a bias row, and a
  row of 220 with a bias row); a second region, over 32 blocks of 512 rows, applies the composed maps to the batch.

  At the ideal instance every float is an extended real and every operation exact.  Entry by entry the reference's
  results are the layered network of the launch memory and the kernel's the folded one.  Under the precondition every
  argument entry is a real number; over the reals the two are the same by associativity and distributivity of finite
  sums, and the inclusion of the reals in the extended reals respects sums and products.  Finiteness is used: on the
  extended reals distributivity fails at the infinities.  The exponential is one function on both sides.

  The three frames are the generated ones (the reference's is its run with the results dropped), and the ideal pass
  rewrote nothing, so the idealization conjunct is trivial.
-/
import proofs.«176251_g39084202394388_cont_8to1_b_76_3_alg».proof.Defs
import proofs.«176251_g39084202394388_cont_8to1_b_76_3_alg».proof.Proof.Gen.Kernel
import proofs.«176251_g39084202394388_cont_8to1_b_76_3_alg».proof.Proof.Gen.Kernel.Skeleton
import proofs.«176251_g39084202394388_cont_8to1_b_76_3_alg».proof.Proof.Gen.Kernel.Launch
import proofs.«176251_g39084202394388_cont_8to1_b_76_3_alg».proof.Proof.Gen.Kernel.Points
import proofs.«176251_g39084202394388_cont_8to1_b_76_3_alg».proof.Proof.Gen.Kernel.Frame
import proofs.«176251_g39084202394388_cont_8to1_b_76_3_alg».proof.Proof.Gen.KernelIdeal
import proofs.«176251_g39084202394388_cont_8to1_b_76_3_alg».proof.Proof.Gen.KernelIdeal.Skeleton
import proofs.«176251_g39084202394388_cont_8to1_b_76_3_alg».proof.Proof.Gen.KernelIdeal.Launch
import proofs.«176251_g39084202394388_cont_8to1_b_76_3_alg».proof.Proof.Gen.KernelIdeal.Points
import proofs.«176251_g39084202394388_cont_8to1_b_76_3_alg».proof.Proof.Gen.KernelIdeal.Frame
import proofs.«176251_g39084202394388_cont_8to1_b_76_3_alg».proof.Proof.Gen.ReferenceIdeal
import proofs.«176251_g39084202394388_cont_8to1_b_76_3_alg».proof.Proof.Gen.Pre_finite_inputs
import proofs.«176251_g39084202394388_cont_8to1_b_76_3_alg».proof.Proof.KRun
import proofs.«176251_g39084202394388_cont_8to1_b_76_3_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, with the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote no operation. -/
theorem preserves : Cert.preserves_Kernel_KernelIdeal := trivial

/-- From memories agreeing on the arguments, both idealized programs run and end with equal results: the kernel's
    three result arrays are the folded network of the launch memory, the reference's the layered one, and under the
    precondition the two are equal entry by entry. -/
theorem algebraic : Cert.algebraic_KernelIdeal_ReferenceIdeal := by
  intro m ρ m' ρ' hpre hagree
  refine ⟨fun c => Cert.KernelIdeal.Gen.W3 m ρ c (Proc.devRef .tc Cert.KernelIdeal.main_v13_0),
    fun c => Cert.KernelIdeal.Gen.W3 m ρ c (Proc.devRef .tc Cert.KernelIdeal.main_v13_1),
    fun c => Cert.KernelIdeal.Gen.W3 m ρ c (Proc.devRef .tc Cert.KernelIdeal.main_v13_2),
    Cert.KernelIdeal.KRun.run_outs (F := Ideal) m ρ, ?_⟩
  refine (θ_run Cert.ReferenceIdeal.defs _ _).mono (fun r h c => ?_) (Cert.ReferenceIdeal.ValueP.run (F := Ideal) m' ρ')
  obtain ⟨h0, h1, h2, hargs⟩ := h c
  exact ⟨h0.trans (Cert.Bridge.mean_eq m ρ m' hpre hagree c), h1.trans (Cert.Bridge.exp_eq m ρ m' hpre hagree c),
    h2.trans (Cert.Bridge.prod_eq m ρ m' hpre hagree c), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
